-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S2000 : Shape := ⟨1, ![2000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg8
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : IVec S2000 32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S100000x128 : Shape := ⟨2, ![100000, 128]⟩
abbrev S1600000 : Shape := ⟨1, ![1600000]⟩
abbrev S2000 : Shape := ⟨1, ![2000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1 : Shape := ⟨1, ![1]⟩
abbrev S1999 : Shape := ⟨1, ![1999]⟩
abbrev S2000x1 : Shape := ⟨2, ![2000, 1]⟩
abbrev S1x1 : Shape := ⟨2, ![1, 1]⟩
abbrev S2000x128 : Shape := ⟨2, ![2000, 128]⟩
abbrev S1x64 : Shape := ⟨2, ![1, 64]⟩
abbrev S2000x64 : Shape := ⟨2, ![2000, 64]⟩
abbrev S400x128 : Shape := ⟨2, ![400, 128]⟩
abbrev S400x64 : Shape := ⟨2, ![400, 64]⟩

abbrev nBuf : Space → Nat
  | .hbm => 122
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S2000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x128, .bf16⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .bf16⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .bf16⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .bf16⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S1x128, .f32⟩
  | .hbm, ⟨55, _⟩ => ⟨S100000x128, .bf16⟩
  | .hbm, ⟨56, _⟩ => ⟨S2000, .i32⟩
  | .hbm, ⟨57, _⟩ => ⟨S1, .i32⟩
  | .hbm, ⟨58, _⟩ => ⟨S1999, .i32⟩
  | .hbm, ⟨59, _⟩ => ⟨S2000, .i32⟩
  | .hbm, ⟨60, _⟩ => ⟨S_, .i32⟩
  | .hbm, ⟨61, _⟩ => ⟨S1, .i32⟩
  | .hbm, ⟨62, _⟩ => ⟨S_, .i32⟩
  | .hbm, ⟨63, _⟩ => ⟨S2000, .i32⟩
  | .hbm, ⟨64, _⟩ => ⟨S_, .i32⟩
  | .hbm, ⟨65, _⟩ => ⟨S_, .i32⟩
  | .hbm, ⟨66, _⟩ => ⟨S2000, .i32⟩
  | .hbm, ⟨67, _⟩ => ⟨S_, .i32⟩
  | .hbm, ⟨68, _⟩ => ⟨S100000, .i32⟩
  | .hbm, ⟨69, _⟩ => ⟨S_, .i32⟩
  | .hbm, ⟨70, _⟩ => ⟨S2000, .i32⟩
  | .hbm, ⟨71, _⟩ => ⟨S2000, .i1⟩
  | .hbm, ⟨72, _⟩ => ⟨S_, .i32⟩
  | .hbm, ⟨73, _⟩ => ⟨S2000, .i32⟩
  | .hbm, ⟨74, _⟩ => ⟨S2000, .i32⟩
  | .hbm, ⟨75, _⟩ => ⟨S2000, .i32⟩
  | .hbm, ⟨76, _⟩ => ⟨S2000x1, .i32⟩
  | .hbm, ⟨77, _⟩ => ⟨S_, .i32⟩
  | .hbm, ⟨78, _⟩ => ⟨S2000, .i32⟩
  | .hbm, ⟨79, _⟩ => ⟨S100000, .i32⟩
  | .hbm, ⟨80, _⟩ => ⟨S_, .i32⟩
  | .hbm, ⟨81, _⟩ => ⟨S_, .i32⟩
  | .hbm, ⟨82, _⟩ => ⟨S100000, .i32⟩
  | .hbm, ⟨83, _⟩ => ⟨S_, .i32⟩
  | .hbm, ⟨84, _⟩ => ⟨S100000, .i32⟩
  | .hbm, ⟨85, _⟩ => ⟨S100000, .i32⟩
  | .hbm, ⟨86, _⟩ => ⟨S_, .i32⟩
  | .hbm, ⟨87, _⟩ => ⟨S100000, .i32⟩
  | .hbm, ⟨88, _⟩ => ⟨S100000, .i1⟩
  | .hbm, ⟨89, _⟩ => ⟨S_, .i32⟩
  | .hbm, ⟨90, _⟩ => ⟨S100000, .i32⟩
  | .hbm, ⟨91, _⟩ => ⟨S100000, .i32⟩
  | .hbm, ⟨92, _⟩ => ⟨S100000, .i32⟩
  | .hbm, ⟨93, _⟩ => ⟨S100000x1, .i32⟩
  | .hbm, ⟨94, _⟩ => ⟨S1, .i32⟩
  | .hbm, ⟨95, _⟩ => ⟨S_, .i32⟩
  | .hbm, ⟨96, _⟩ => ⟨S100000x1, .i32⟩
  | .hbm, ⟨97, _⟩ => ⟨S100000x1, .i1⟩
  | .hbm, ⟨98, _⟩ => ⟨S1x1, .i32⟩
  | .hbm, ⟨99, _⟩ => ⟨S100000x1, .i32⟩
  | .hbm, ⟨100, _⟩ => ⟨S100000x1, .i1⟩
  | .hbm, ⟨101, _⟩ => ⟨S100000x1, .i1⟩
  | .hbm, ⟨102, _⟩ => ⟨S_, .i1⟩
  | .hbm, ⟨103, _⟩ => ⟨S100000, .i1⟩
  | .hbm, ⟨104, _⟩ => ⟨S100000, .i32⟩
  | .hbm, ⟨105, _⟩ => ⟨S_, .i32⟩
  | .hbm, ⟨106, _⟩ => ⟨S100000, .i32⟩
  | .hbm, ⟨107, _⟩ => ⟨S100000, .i32⟩
  | .hbm, ⟨108, _⟩ => ⟨S100000x128, .f32⟩
  | .hbm, ⟨109, _⟩ => ⟨S_, .f32⟩
  | .hbm, ⟨110, _⟩ => ⟨S2000x128, .f32⟩
  | .hbm, ⟨111, _⟩ => ⟨S100000x1, .i32⟩
  | .hbm, ⟨112, _⟩ => ⟨S2000x128, .f32⟩
  | .hbm, ⟨113, _⟩ => ⟨S2000, .f32⟩
  | .hbm, ⟨114, _⟩ => ⟨S_, .f32⟩
  | .hbm, ⟨115, _⟩ => ⟨S2000, .f32⟩
  | .hbm, ⟨116, _⟩ => ⟨S2000, .f32⟩
  | .hbm, ⟨117, _⟩ => ⟨S2000x1, .f32⟩
  | .hbm, ⟨118, _⟩ => ⟨S2000x128, .f32⟩
  | .hbm, ⟨119, _⟩ => ⟨S2000x128, .f32⟩
  | .hbm, ⟨120, _⟩ => ⟨S1x64, .f32⟩
  | .hbm, ⟨121, _⟩ => ⟨S2000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .bf16⟩
  | .local _ .vmem, ⟨7, _⟩ => ⟨S5000x128, .bf16⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .bf16⟩
  | .local _ .vmem, ⟨15, _⟩ => ⟨S5000x128, .bf16⟩
  | .local _ .vmem, ⟨16, _⟩ => ⟨S400x128, .f32⟩
  | .local _ .vmem, ⟨17, _⟩ => ⟨S400x128, .f32⟩
  | .local _ .vmem, ⟨18, _⟩ => ⟨S128x64, .f32⟩
  | .local _ .vmem, ⟨19, _⟩ => ⟨S1x64, .f32⟩
  | .local _ .vmem, ⟨20, _⟩ => ⟨S400x64, .f32⟩
  | .local _ .vmem, ⟨21, _⟩ => ⟨S400x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_v0 : Ref sig .tc := ⟨.hbm, 57, rfl⟩
abbrev main_call0_v1 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_call1_call0_c : Ref sig .tc := ⟨.hbm, 64, rfl⟩
abbrev main_call1_call0_v0 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_c_11 : Ref sig .tc := ⟨.hbm, 69, rfl⟩
abbrev main_v42 : Ref sig .tc := ⟨.hbm, 70, rfl⟩
abbrev main_v43 : Ref sig .tc := ⟨.hbm, 71, rfl⟩
abbrev main_c_12 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_13 : Ref sig .tc := ⟨.hbm, 77, rfl⟩
abbrev main_v48 : Ref sig .tc := ⟨.hbm, 78, rfl⟩
abbrev main_v49 : Ref sig .tc := ⟨.hbm, 79, rfl⟩
abbrev main_call2_call0_c : Ref sig .tc := ⟨.hbm, 80, rfl⟩
abbrev main_call2_call0_v0 : Ref sig .tc := ⟨.hbm, 81, rfl⟩
abbrev main_v50 : Ref sig .tc := ⟨.hbm, 82, rfl⟩
abbrev main_c_14 : Ref sig .tc := ⟨.hbm, 83, rfl⟩
abbrev main_v51 : Ref sig .tc := ⟨.hbm, 84, rfl⟩
abbrev main_v52 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_c_4 : Ref sig .tc := ⟨.hbm, 105, rfl⟩
abbrev main_call3_v14 : Ref sig .tc := ⟨.hbm, 106, rfl⟩
abbrev main_v53 : Ref sig .tc := ⟨.hbm, 107, rfl⟩
abbrev main_v54 : Ref sig .tc := ⟨.hbm, 108, rfl⟩
abbrev main_cst_15 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_16 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  slices_S2000_S1_1999 : S2000.Slices ![1999] S1
  slices_S2000_S1999_0 : S2000.Slices ![0] S1999
  concatenates_S1_S1999_S2000_d0 : Shape.Concatenates [S1, S1999] S2000 0
  bcast_S_S1 : S_.BroadcastsInDim S1 (![] : Fin 0 → Fin S1.rank)
  bcast_S_S_ : S_.BroadcastsInDim S_ (![] : Fin 0 → Fin S_.rank)
  reduceWindows_S2000_S2000_w2000s1p1999_0 : S2000.ReduceWindows (![2000] : Fin 1 → Nat) ![1] ![1999] ![0] S2000
  h_S_ : 0 < S_.numel
  bcast_S_S2000 : S_.BroadcastsInDim S2000 (![] : Fin 0 → Fin S2000.rank)
  bcast_S2000_S2000x1_0 : S2000.BroadcastsInDim S2000x1 (![0] : Fin 1 → Fin S2000x1.rank)
  reduceWindows_S100000_S100000_w100000s1p99999_0 : S100000.ReduceWindows (![100000] : Fin 1 → Nat) ![1] ![99999] ![0] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  bcast_S_S2000x128 : S_.BroadcastsInDim S2000x128 (![] : Fin 0 → Fin S2000x128.rank)
  bcast_S2000x1_S2000x128_0_1 : S2000x1.BroadcastsInDim S2000x128 (![0, 1] : Fin 2 → Fin S2000x128.rank)
  shapeCasts_S64_S1x64 : S64.ShapeCasts S1x64
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S2000_S1_S__n_0_0_0_wf : ScatterDims.WF S2000 S1 S_ [] [0] [0] 0
  scatter_S100000_S2000x1_S2000_n_0_0_1_wf : ScatterDims.WF S100000 S2000x1 S2000 [] [0] [0] 1
  gather_S2000_S100000x1_S100000_n_0_n_n_0_1_1_wf : GatherDims.WF S2000 S100000x1 S100000 [] [0] [] [0] [] 1 ![1]
  scatter_S2000x128_S100000x1_S100000x128_1_0_0_1_wf : ScatterDims.WF S2000x128 S100000x1 S100000x128 [1] [0] [0] 1
  dot_S400x128_S128x64_S400x64_1_0_0_1_n_n_wf : DotDims.WF S400x128 S128x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x128.size a ≤ S2000x128.size a
  hwx2_0 : ∀ i : grid2.Coords, EltTy.bits .f32 = 32 ∨ (Rect.block (s := S2000x128) S400x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S2000x64.size a
  hwx2_3 : ∀ i : grid2.Coords, EltTy.bits .f32 = 32 ∨ (Rect.block (s := S2000x64) S400x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S2000_S1_S__n_0_0_0 : ScatterDims S2000 S1 S_ where
  updateWindowDims := []
  insertedWindowDims := [0]
  scatterDimsToOperandDims := [0]
  indexVectorDim := 0
  wf := scatter_S2000_S1_S__n_0_0_0_wf
def scatter_S100000_S2000x1_S2000_n_0_0_1 : ScatterDims S100000 S2000x1 S2000 where
  updateWindowDims := []
  insertedWindowDims := [0]
  scatterDimsToOperandDims := [0]
  indexVectorDim := 1
  wf := scatter_S100000_S2000x1_S2000_n_0_0_1_wf
def gather_S2000_S100000x1_S100000_n_0_n_n_0_1_1 : GatherDims S2000 S100000x1 S100000 where
  offsetDims := []
  collapsedSliceDims := [0]
  operandBatchingDims := []
  startIndicesBatchingDims := []
  startIndexMap := [0]
  indexVectorDim := 1
  sliceSizes := ![1]
  wf := gather_S2000_S100000x1_S100000_n_0_n_n_0_1_1_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v63) S400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S2000 : Shape := ⟨1, ![2000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1 : Shape := ⟨1, ![1]⟩
abbrev S1999 : Shape := ⟨1, ![1999]⟩
abbrev S2000x1 : Shape := ⟨2, ![2000, 1]⟩
abbrev S1x1 : Shape := ⟨2, ![1, 1]⟩
abbrev S2000x128 : Shape := ⟨2, ![2000, 128]⟩
abbrev S2000x64 : Shape := ⟨2, ![2000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S2000, .i32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x1, .f32⟩
  | 36 => ⟨S100000x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S2000, .i32⟩
  | 69 => ⟨S1, .i32⟩
  | 70 => ⟨S1999, .i32⟩
  | 71 => ⟨S2000, .i32⟩
  | 72 => ⟨S_, .i32⟩
  | 73 => ⟨S1, .i32⟩
  | 74 => ⟨S_, .i32⟩
  | 75 => ⟨S2000, .i32⟩
  | 76 => ⟨S_, .i32⟩
  | 77 => ⟨S_, .i32⟩
  | 78 => ⟨S2000, .i32⟩
  | 79 => ⟨S_, .i32⟩
  | 80 => ⟨S100000, .i32⟩
  | 81 => ⟨S_, .i32⟩
  | 82 => ⟨S2000, .i32⟩
  | 83 => ⟨S2000, .i1⟩
  | 84 => ⟨S_, .i32⟩
  | 85 => ⟨S2000, .i32⟩
  | 86 => ⟨S2000, .i32⟩
  | 87 => ⟨S2000, .i32⟩
  | 88 => ⟨S2000x1, .i32⟩
  | 89 => ⟨S_, .i32⟩
  | 90 => ⟨S2000, .i32⟩
  | 91 => ⟨S100000, .i32⟩
  | 92 => ⟨S_, .i32⟩
  | 93 => ⟨S_, .i32⟩
  | 94 => ⟨S100000, .i32⟩
  | 95 => ⟨S_, .i32⟩
  | 96 => ⟨S100000, .i32⟩
  | 97 => ⟨S100000, .i32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S1, .i32⟩
  | 107 => ⟨S_, .i32⟩
  | 108 => ⟨S100000x1, .i32⟩
  | 109 => ⟨S100000x1, .i1⟩
  | 110 => ⟨S1x1, .i32⟩
  | 111 => ⟨S100000x1, .i32⟩
  | 112 => ⟨S100000x1, .i1⟩
  | 113 => ⟨S100000x1, .i1⟩
  | 114 => ⟨S_, .i1⟩
  | 115 => ⟨S100000, .i1⟩
  | 116 => ⟨S100000, .i32⟩
  | 117 => ⟨S_, .i32⟩
  | 118 => ⟨S100000, .i32⟩
  | 119 => ⟨S100000, .i32⟩
  | 120 => ⟨S_, .f32⟩
  | 121 => ⟨S2000x128, .f32⟩
  | 122 => ⟨S100000x1, .i32⟩
  | 123 => ⟨S2000x128, .f32⟩
  | 124 => ⟨S2000, .f32⟩
  | 125 => ⟨S_, .f32⟩
  | 126 => ⟨S2000, .f32⟩
  | 127 => ⟨S2000, .f32⟩
  | _ => ⟨S100000x128, .f32⟩

abbrev hbmTy0_1 (i : Nat) : BufTy := match i % 128 with
  | 0 => ⟨S2000x1, .f32⟩
  | 1 => ⟨S2000x128, .f32⟩
  | 2 => ⟨S2000x128, .f32⟩
  | 3 => ⟨S2000x64, .f32⟩
  | 4 => ⟨S1x64, .f32⟩
  | 5 => ⟨S2000x64, .f32⟩
  | 6 => ⟨S2000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_cst : Ref sig .tc := ⟨.hbm, 65, rfl⟩
abbrev main_call1_v0 : Ref sig .tc := ⟨.hbm, 66, rfl⟩
abbrev main_v43 : Ref sig .tc := ⟨.hbm, 67, rfl⟩
abbrev main_v44 : Ref sig .tc := ⟨.hbm, 68, rfl⟩
abbrev main_call2_v0 : Ref sig .tc := ⟨.hbm, 69, rfl⟩
abbrev main_call2_v1 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_call3_call0_c : Ref sig .tc := ⟨.hbm, 76, rfl⟩
abbrev main_call3_call0_v0 : Ref sig .tc := ⟨.hbm, 77, rfl⟩
abbrev main_v48 : Ref sig .tc := ⟨.hbm, 78, rfl⟩
abbrev main_c_10 : Ref sig .tc := ⟨.hbm, 79, rfl⟩
abbrev main_v49 : Ref sig .tc := ⟨.hbm, 80, rfl⟩
abbrev main_c_11 : Ref sig .tc := ⟨.hbm, 81, rfl⟩
abbrev main_v50 : Ref sig .tc := ⟨.hbm, 82, rfl⟩
abbrev main_v51 : Ref sig .tc := ⟨.hbm, 83, rfl⟩
abbrev main_c_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_13 : Ref sig .tc := ⟨.hbm, 89, rfl⟩
abbrev main_v56 : Ref sig .tc := ⟨.hbm, 90, rfl⟩
abbrev main_v57 : Ref sig .tc := ⟨.hbm, 91, rfl⟩
abbrev main_call4_call0_c : Ref sig .tc := ⟨.hbm, 92, rfl⟩
abbrev main_call4_call0_v0 : Ref sig .tc := ⟨.hbm, 93, rfl⟩
abbrev main_v58 : Ref sig .tc := ⟨.hbm, 94, rfl⟩
abbrev main_c_14 : Ref sig .tc := ⟨.hbm, 95, rfl⟩
abbrev main_v59 : Ref sig .tc := ⟨.hbm, 96, rfl⟩
abbrev main_v60 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_c_4 : Ref sig .tc := ⟨.hbm, 117, rfl⟩
abbrev main_call5_v14 : Ref sig .tc := ⟨.hbm, 118, rfl⟩
abbrev main_v61 : Ref sig .tc := ⟨.hbm, 119, rfl⟩
abbrev main_cst_15 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_cst_16 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2000_S1_1999 : S2000.Slices ![1999] S1
  slices_S2000_S1999_0 : S2000.Slices ![0] S1999
  concatenates_S1_S1999_S2000_d0 : Shape.Concatenates [S1, S1999] S2000 0
  bcast_S_S1 : S_.BroadcastsInDim S1 (![] : Fin 0 → Fin S1.rank)
  bcast_S_S_ : S_.BroadcastsInDim S_ (![] : Fin 0 → Fin S_.rank)
  reduceWindows_S2000_S2000_w2000s1p1999_0 : S2000.ReduceWindows (![2000] : Fin 1 → Nat) ![1] ![1999] ![0] S2000
  h_S_ : 0 < S_.numel
  bcast_S_S2000 : S_.BroadcastsInDim S2000 (![] : Fin 0 → Fin S2000.rank)
  bcast_S2000_S2000x1_0 : S2000.BroadcastsInDim S2000x1 (![0] : Fin 1 → Fin S2000x1.rank)
  reduceWindows_S100000_S100000_w100000s1p99999_0 : S100000.ReduceWindows (![100000] : Fin 1 → Nat) ![1] ![99999] ![0] S100000
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  bcast_S_S2000x128 : S_.BroadcastsInDim S2000x128 (![] : Fin 0 → Fin S2000x128.rank)
  bcast_S2000x1_S2000x128_0_1 : S2000x1.BroadcastsInDim S2000x128 (![0, 1] : Fin 2 → Fin S2000x128.rank)
  bcast_S64_S1x64_1 : S64.BroadcastsInDim S1x64 (![1] : Fin 1 → Fin S1x64.rank)
  bcast_S1x64_S2000x64_0_1 : S1x64.BroadcastsInDim S2000x64 (![0, 1] : Fin 2 → Fin S2000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S2000_S1_S__n_0_0_0_wf : ScatterDims.WF S2000 S1 S_ [] [0] [0] 0
  scatter_S100000_S2000x1_S2000_n_0_0_1_wf : ScatterDims.WF S100000 S2000x1 S2000 [] [0] [0] 1
  gather_S2000_S100000x1_S100000_n_0_n_n_0_1_1_wf : GatherDims.WF S2000 S100000x1 S100000 [] [0] [] [0] [] 1 ![1]
  scatter_S2000x128_S100000x1_S100000x128_1_0_0_1_wf : ScatterDims.WF S2000x128 S100000x1 S100000x128 [1] [0] [0] 1
  dot_S2000x128_S128x64_S2000x64_1_0_0_1_n_n_wf : DotDims.WF S2000x128 S128x64 S2000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2000_S1_S__n_0_0_0 : ScatterDims S2000 S1 S_ where
  updateWindowDims := []
  insertedWindowDims := [0]
  scatterDimsToOperandDims := [0]
  indexVectorDim := 0
  wf := scatter_S2000_S1_S__n_0_0_0_wf
def scatter_S100000_S2000x1_S2000_n_0_0_1 : ScatterDims S100000 S2000x1 S2000 where
  updateWindowDims := []
  insertedWindowDims := [0]
  scatterDimsToOperandDims := [0]
  indexVectorDim := 1
  wf := scatter_S100000_S2000x1_S2000_n_0_0_1_wf
def gather_S2000_S100000x1_S100000_n_0_n_n_0_1_1 : GatherDims S2000 S100000x1 S100000 where
  offsetDims := []
  collapsedSliceDims := [0]
  operandBatchingDims := []
  startIndicesBatchingDims := []
  startIndexMap := [0]
  indexVectorDim := 1
  sliceSizes := ![1]
  wf := gather_S2000_S100000x1_S100000_n_0_n_n_0_1_1_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

class Facts : Prop extends Facts₀ where

variable [Facts]
-- ==== Proof.KRun.lean ====
/-
  The idealized kernel program's run with its result named.

  The program is three launches among stretches of array operations. Every execution terminates without a fault; at
  the end each buffer holds what the last boundary of the run leaves in it. Read at the result buffer this names the
  result (the contents of the third launch's output array after its write-backs); read at the ten argument buffers it
  gives back the launch contents.
-/
import proofs.«110495_j4595615007149_2_alg».proof.Proof.Gen.KernelIdeal.Frame

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- Every execution of the program terminates; the result buffer ends at the last boundary's contents and the
    arguments end as launched. -/
theorem run_main (m : (ℓ : Loc nD τ sig) → Buf (Elt F) ℓ) (ρ : Dev nD → PrngReg) : θ_run defs (onTc (τ := τ) (main (F := F))) ⟨m, fun _ => 0, ρ⟩ (fun r => ∀ c : Dev nD,
      r.2.mem ((c.tc : Thread nD τ).loc main_v65) = W14 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v65 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.KRun

end
-- ==== Proof.KNet.lean ====
/-
  The pieces of the network that the kernel program computes with array operations between its launches.

  They are the reference network's pieces (the in-degree factor, the sender rows, the per-node sum over incoming edges,
  the graph number of every node, the per-graph mean) applied by the same operations in the same order; the one
  difference is that the feature arrays they gather from and pool over are held in a narrower float format and widened
  after the gather or before the pooling, which on the extended reals is the identity.
-/
import proofs.«110495_j4595615007149_2_alg».proof.KernelIdeal
import proofs.«110495_j4595615007149_2_alg».proof.Proof.Gen.KernelIdeal

noncomputable section

namespace Cert.KernelIdeal.Net

open Cert.KernelIdeal Cert.KernelIdeal.Facts₀ Idealize.ShloMosaic

variable {F : FTy → Type} [FloatOps F]

/-- Per node, `1 / max (in-degree, 1)`. -/
def invDeg (recv : IVec S1600000 32) : FVec F S100000 .f32 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 recv)
        (broadcastInDim S1600000 ![] bcast_S_S1600000 (constant S_ .f32 0x3F800000#32)))
      (broadcastInDim S100000 ![] bcast_S_S100000 (constant S_ .f32 0x3F800000#32)))

/-- The sender indices as a column of row numbers: a negative index is wrapped by the number of nodes. -/
def srcRows (send : IVec S1600000 32) : IVec S1600000x1 32 :=
  broadcastInDim S1600000x1 ![0] bcast_S1600000_S1600000x1_0
    (select (cmpi .slt send (broadcastInDim S1600000 ![] bcast_S_S1600000 (constantI S_ 32 0#32)))
      (addi send (broadcastInDim S1600000 ![] bcast_S_S1600000 (constantI S_ 32 100000#32))) send)

/-- Per node, the sum over its incoming edges of the sender's feature row. -/
def aggK (h : FVec F S100000x128 .bf16) (send recv : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 recv)
    (extf .f32 (Host.gather gather_S100000x128_S1600000x1_S1600000x128_1_0_n_n_0_1_1128 h (srcRows send)) bitsLt_bf16_f32)

/-- The node counts rotated by one place: the last count first. -/
def rolled (nn : IVec S2000 32) : IVec S2000 32 :=
  concatenate S2000 0 [⟨S1, extractStridedSlice S1 ![1999] nn slices_S2000_S1_1999⟩,
    ⟨S1999, extractStridedSlice S1999 ![0] nn slices_S2000_S1999_0⟩] concatenates_S1_S1999_S2000_d0

/-- A zero written over the first entry. -/
def patched (r : IVec S2000 32) : IVec S2000 32 :=
  Host.scatter scatter_S2000_S1_S__n_0_0_0 (fun _ b => b) r
    (broadcastInDim S1 ![] bcast_S_S1 (constantI S_ 32 0#32)) (constantI S_ 32 0#32)

/-- The running sum of 2000 entries. -/
def cumsum2000 (x : IVec S2000 32) : IVec S2000 32 :=
  Host.reduceWindow IntOp.addi ![2000] ![1] ![1999] ![0] x
    (broadcastInDim S_ ![] bcast_S_S_ (constantI S_ 32 0#32)) reduceWindows_S2000_S2000_w2000s1p1999_0 h_S_

/-- Each graph's first node: the running sum of the rotated counts with a zero written in front. -/
def starts (nn : IVec S2000 32) : IVec S2000 32 := cumsum2000 (patched (rolled nn))

/-- Start offsets as a column of positions (a negative one wrapped by the number of nodes). -/
def startRowsOf (s : IVec S2000 32) : IVec S2000x1 32 :=
  broadcastInDim S2000x1 ![0] bcast_S2000_S2000x1_0
    (select (cmpi .slt s (broadcastInDim S2000 ![] bcast_S_S2000 (constantI S_ 32 0#32)))
      (addi s (broadcastInDim S2000 ![] bcast_S_S2000 (constantI S_ 32 100000#32))) s)

/-- A one added at every start offset. -/
def marksOf (s : IVec S2000 32) : IVec S100000 32 :=
  Host.scatter scatter_S100000_S2000x1_S2000_n_0_0_1 IntOp.addi
    (broadcastInDim S100000 ![] bcast_S_S100000 (constantI S_ 32 0#32)) (startRowsOf s)
    (broadcastInDim S2000 ![] bcast_S_S2000 (constantI S_ 32 1#32))

/-- A one added at every graph's first node. -/
def marks (nn : IVec S2000 32) : IVec S100000 32 := marksOf (starts nn)

/-- The running sum of 100000 entries. -/
def cumsum100000 (x : IVec S100000 32) : IVec S100000 32 :=
  Host.reduceWindow IntOp.addi ![100000] ![1] ![99999] ![0] x
    (broadcastInDim S_ ![] bcast_S_S_ (constantI S_ 32 0#32)) reduceWindows_S100000_S100000_w100000s1p99999_0 h_S_

/-- Every entry minus one. -/
def dec (x : IVec S100000 32) : IVec S100000 32 :=
  subi x (broadcastInDim S100000 ![] bcast_S_S100000 (constantI S_ 32 1#32))

/-- The running sum of the marks, minus one: for every node, the position of its graph. -/
def pos (nn : IVec S2000 32) : IVec S100000 32 := dec (cumsum100000 (marks nn))

/-- The positions as a column of row numbers into a table of 2000 (a negative one wrapped by 2000). -/
def takeRows (p : IVec S100000 32) : IVec S100000x1 32 :=
  broadcastInDim S100000x1 ![0] bcast_S100000_S100000x1_0
    (select (cmpi .slt p (broadcastInDim S100000 ![] bcast_S_S100000 (constantI S_ 32 0#32)))
      (addi p (broadcastInDim S100000 ![] bcast_S_S100000 (constantI S_ 32 2000#32))) p)

/-- Which positions are inside the table. -/
def takeOk (p : IVec S100000 32) : IVec S100000 1 :=
  Host.reduce IntOp.andi
    (andi (cmpi .sge (takeRows p) (broadcastInDim S100000x1 ![] bcast_S_S100000x1 (constantI S_ 32 0#32)))
      (cmpi .sle (takeRows p)
        (broadcastInDim S100000x1 ![0, 1] bcast_S1x1_S100000x1_0_1 (broadcastInDim S1x1 ![1] bcast_S1_S1x1_1 (constantI S1 32 1999#32)))))
    (constantI S_ 1 1#1) reducesTo_S100000x1_S100000_d1 h_S_

/-- The table looked up at the positions, the fill value where a position is outside. -/
def taken (tbl : IVec S2000 32) (p : IVec S100000 32) : IVec S100000 32 :=
  select (takeOk p) (Host.gather gather_S2000_S100000x1_S100000_n_0_n_n_0_1_1 tbl (takeRows p))
    (broadcastInDim S100000 ![] bcast_S_S100000 (constantI S_ 32 2147483648#32))

/-- The graph number of every node. -/
def gidx (nn : IVec S2000 32) : IVec S100000 32 := taken (iotaInDim S2000 32 0) (pos nn)

/-- Per graph, `max (node count, 1)` broadcast along the feature axis. -/
def denom (nn : IVec S2000 32) : FVec F S2000x128 .f32 :=
  broadcastInDim S2000x128 ![0, 1] bcast_S2000x1_S2000x128_0_1
    (broadcastInDim S2000x1 ![0] bcast_S2000_S2000x1_0
      (maximumf (sitofp .f32 nn) (broadcastInDim S2000 ![] bcast_S_S2000 (constant S_ .f32 0x3F800000#32))))

/-- Per graph, the sum of the feature rows of the nodes whose graph number `g` names it. -/
def pooledSumK (h : FVec F S100000x128 .bf16) (g : IVec S100000 32) : FVec F S2000x128 .f32 :=
  Host.scatterAdd scatter_S2000x128_S100000x1_S100000x128_1_0_0_1
    (broadcastInDim S2000x128 ![] bcast_S_S2000x128 (constant S_ .f32 0x00000000#32))
    (broadcastInDim S100000x1 ![0] bcast_S100000_S100000x1_0 g) (extf .f32 h bitsLt_bf16_f32)

/-- Per graph, the mean of its nodes' feature rows. -/
def pooledK (h : FVec F S100000x128 .bf16) (g : IVec S100000 32) (nn : IVec S2000 32) : FVec F S2000x128 .f32 :=
  Host.divf (pooledSumK h g) (denom nn)

/-- The per-node factor as a one-column array. -/
def invCol (recv : IVec S1600000 32) : FVec F S100000x1 .f32 :=
  shapeCast S100000x1 (invDeg recv) shapeCasts_S100000_S100000x1

/-- A bias vector of length 128 as a one-row array. -/
def biasRow (b : FVec F S128 .f32) : FVec F S1x128 .f32 := shapeCast S1x128 b shapeCasts_S128_S1x128

/-- The read-out's bias vector as a one-row array. -/
def biasRowOut (b : FVec F S64 .f32) : FVec F S1x64 .f32 := shapeCast S1x64 b shapeCasts_S64_S1x64

/-- The input features narrowed to the format the first gather reads. -/
def narrow (x : FVec F S100000x128 .f32) : FVec F S100000x128 .bf16 := truncf .bf16 x bitsLt_bf16_f32

end Cert.KernelIdeal.Net

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«110495_j4595615007149_2_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.Dense.lean ====
/-
  Rows scaled by a per-row factor, and the dense layer built on it.

  `scaleRows x col` multiplies every feature row of `x` by that row's entry of the one-column array `col`;
  `dense x col w b` is the graph-convolution layer's arithmetic on an aggregated feature array: scale the rows, project
  by `w`, add the bias row `b`, clamp at zero; `affine x w b` is the read-out's: project and add the bias row.
  The second half shows that a plain array program's way of scaling the rows — multiply by the factor vector broadcast
  first to a column and then along the rows — is `scaleRows` with the vector read as a column.
-/
import proofs.«110495_j4595615007149_2_alg».proof.Proof.LibDenseLayers
import proofs.«110495_j4595615007149_2_alg».proof.Proof.LibKeepdims

noncomputable section

namespace Cert.Layers

open Idealize.ShloMosaic Idealize.ShloMosaic.ValueIdx

variable {M K N : Nat}

/-- Every row of `x` multiplied by its entry of the column `col`. -/
def scaleRows (x : (⟨2, ![M, K]⟩ : Shape).Idx → EReal) (col : (⟨2, ![M, 1]⟩ : Shape).Idx → EReal) :
    (⟨2, ![M, K]⟩ : Shape).Idx → EReal :=
  fun i => x i * col (ix2 (n0 := M) (i 0) (0 : Fin 1))

theorem scaleRows_apply (x : (⟨2, ![M, K]⟩ : Shape).Idx → EReal) (col : (⟨2, ![M, 1]⟩ : Shape).Idx → EReal) (p : Fin M) (k : Fin K) :
    scaleRows x col (ix2 p k) = x (ix2 p k) * col (ix2 p (0 : Fin 1)) := rfl

/-- The convolution layer's arithmetic: scale the rows, project, add the bias row, clamp at zero. -/
def dense (x : (⟨2, ![M, K]⟩ : Shape).Idx → EReal) (col : (⟨2, ![M, 1]⟩ : Shape).Idx → EReal)
    (w : (⟨2, ![K, N]⟩ : Shape).Idx → EReal) (b : (⟨2, ![1, N]⟩ : Shape).Idx → EReal) : (⟨2, ![M, N]⟩ : Shape).Idx → EReal :=
  addRowClamp (project (scaleRows x col) w) b

/-- The read-out's arithmetic: project and add the bias row. -/
def affine (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  addRow (project x w) b

theorem dense_apply (x : (⟨2, ![M, K]⟩ : Shape).Idx → EReal) (col : (⟨2, ![M, 1]⟩ : Shape).Idx → EReal)
    (w : (⟨2, ![K, N]⟩ : Shape).Idx → EReal) (b : (⟨2, ![1, N]⟩ : Shape).Idx → EReal) (p : Fin M) (q : Fin N) :
    dense x col w b (ix2 p q)
      = max ((∑ k : Fin K, x (ix2 p k) * col (ix2 p (0 : Fin 1)) * w (ix2 k q)) + b (ix2 (0 : Fin 1) q)) 0 := rfl

theorem affine_apply (x : (⟨2, ![M, K]⟩ : Shape).Idx → EReal) (w : (⟨2, ![K, N]⟩ : Shape).Idx → EReal)
    (b : (⟨2, ![1, N]⟩ : Shape).Idx → EReal) (p : Fin M) (q : Fin N) :
    affine x w b (ix2 p q) = (∑ k : Fin K, x (ix2 p k) * w (ix2 k q)) + b (ix2 (0 : Fin 1) q) := rfl

/-- A factor vector broadcast to a column and then along the rows, read at `(p, q)`, is the vector's entry `p`; so is the
    vector reshaped to a column and read at `(p, 0)`. -/
theorem factor_bcast_apply (v : (⟨1, ![M]⟩ : Shape).Idx → EReal)
    (h1 : (⟨1, ![M]⟩ : Shape).BroadcastsInDim ⟨2, ![M, 1]⟩ ![0])
    (h2 : (⟨2, ![M, 1]⟩ : Shape).BroadcastsInDim ⟨2, ![M, K]⟩ ![0, 1])
    (hc : (⟨1, ![M]⟩ : Shape).ShapeCasts ⟨2, ![M, 1]⟩) (p : Fin M) (q : Fin K) :
    broadcastInDim ⟨2, ![M, K]⟩ ![0, 1] h2 (broadcastInDim ⟨2, ![M, 1]⟩ ![0] h1 v) (ix2 p q)
      = shapeCast ⟨2, ![M, 1]⟩ v hc (ix2 p (0 : Fin 1)) := by
  rw [Cert.LibKeepdims.shapeCast_a_a1_apply v hc p (0 : Fin 1)]
  rw [broadcastInDim_apply ![0, 1] h2 _ (ix2 p q) (ix2 p (0 : Fin 1)) (fun a => by
    match a with
    | ⟨0, _⟩ =>
      show p.val = if M = 1 then 0 else p.val
      split
      · have := p.isLt; omega
      · rfl
    | ⟨1, _⟩ => rfl)]
  rw [broadcastInDim_apply ![0] h1 v (ix2 p (0 : Fin 1)) (ix1 p) (fun a => by
    match a with
    | ⟨0, _⟩ =>
      show p.val = if M = 1 then 0 else p.val
      split
      · have := p.isLt; omega
      · rfl)]

/-- Multiplying by the twice-broadcast factor vector is scaling the rows by the vector read as a column. -/
theorem mulf_factor_eq_scaleRows (a : FVec Ideal ⟨2, ![M, K]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, K]⟩ ![0, 1])
    (hc : (⟨1, ![M]⟩ : Shape).ShapeCasts ⟨2, ![M, 1]⟩) :
    mulf a (broadcastInDim ⟨2, ![M, K]⟩ ![0, 1] h2 (broadcastInDim ⟨2, ![M, 1]⟩ ![0] h1 v))
      = scaleRows a (shapeCast ⟨2, ![M, 1]⟩ v hc) := by
  funext i
  obtain ⟨p, q, rfl⟩ : ∃ (p : Fin M) (q : Fin K), i = ix2 p q := ⟨i 0, i 1, eq_ix2 i⟩
  show a (ix2 p q) * _ = a (ix2 p q) * shapeCast ⟨2, ![M, 1]⟩ v hc (ix2 p (0 : Fin 1))
  rw [factor_bcast_apply v h1 h2 hc p q]

end Cert.Layers

end
-- ==== Proof.Bodies.lean ====
/-
  What the three kernel bodies compute, entry by entry, over the extended reals.

  The two convolution bodies take a block of 5000 aggregated feature rows, the matching block of the per-node factor
  column, the weight matrix and the bias row, and store `max ((x · factor) W + b, 0)`; the read-out body takes a block of
  400 pooled rows, the weight matrix and the bias row and stores `x W + b`. A change of float format is the identity on
  the extended reals, the matrix unit's product into a zero accumulator is the plain sum over the contracted axis, and
  the layout operations (a cast to the same shape, a column broadcast along the rows, a row broadcast down the columns)
  read the operand at the evident index. So each body's stored value is the layer's arithmetic (`Layers.dense`,
  `Layers.affine`) of its loaded blocks.
-/
import proofs.«110495_j4595615007149_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«110495_j4595615007149_2_alg».proof.Proof.LibPlainDot
import proofs.«110495_j4595615007149_2_alg».proof.Proof.LibKeepdims
import proofs.«110495_j4595615007149_2_alg».proof.Proof.Dense

noncomputable section

namespace Cert.KernelIdeal.Bodies

open Cert.KernelIdeal Idealize.ShloMosaic Idealize.ShloMosaic.ValueIdx

/-- The first convolution body's stored value at row `p`, feature `q` of the block. -/
theorem conv0_apply (x0 : Vec Ideal S5000x128 .f32) (x1 : Vec Ideal S5000x1 .f32) (x2 : Vec Ideal S128x128 .f32)
    (x3 : Vec Ideal S1x128 .f32) (p : Fin 5000) (q : Fin 128) :
    Gen.k0_pay1 x0 x1 x2 x3 (ix2 p q) = Cert.Layers.dense (M := 5000) (K := 128) (N := 128) x0 x1 x2 x3 (ix2 p q) := by
  rw [Cert.Layers.dense_apply]
  unfold Gen.k0_pay1
  refine congrArg₂ max (congrArg₂ (· + ·) ?_ ?_) ?_
  · refine (Cert.Lib.matmul_plain_zero_apply none _ _ p q).trans (Finset.sum_congr rfl fun k _ => ?_)
    show (shapeCast S5000x128 x0 Gen.shapeCasts_S5000x128_S5000x128 (ix2 p k)
        * broadcastTo S5000x128 (shapeCast S5000x1 x1 Gen.shapeCasts_S5000x1_S5000x1) Gen.broadcasts_S5000x1_S5000x128 (ix2 p k))
        * x2 (ix2 k q) = _
    rw [shapeCast_self, shapeCast_self, Cert.LibKeepdims.broadcastTo_a1_ab_apply]
  · show broadcastTo S5000x128 (shapeCast S1x128 x3 Gen.shapeCasts_S1x128_S1x128) Gen.broadcasts_S1x128_S5000x128 (ix2 p q) = _
    rw [shapeCast_self, broadcastTo_1b_ab_apply]
  · exact Ideal.ofBits_zero_f32

/-- The second convolution body's stored value at row `p`, feature `q` of the block. -/
theorem conv1_apply (x0 : Vec Ideal S5000x128 .f32) (x1 : Vec Ideal S5000x1 .f32) (x2 : Vec Ideal S128x128 .f32)
    (x3 : Vec Ideal S1x128 .f32) (p : Fin 5000) (q : Fin 128) :
    Gen.k1_pay1 x0 x1 x2 x3 (ix2 p q) = Cert.Layers.dense (M := 5000) (K := 128) (N := 128) x0 x1 x2 x3 (ix2 p q) := by
  rw [Cert.Layers.dense_apply]
  unfold Gen.k1_pay1
  refine congrArg₂ max (congrArg₂ (· + ·) ?_ ?_) ?_
  · refine (Cert.Lib.matmul_plain_zero_apply none _ _ p q).trans (Finset.sum_congr rfl fun k _ => ?_)
    show (shapeCast S5000x128 x0 Gen.shapeCasts_S5000x128_S5000x128 (ix2 p k)
        * broadcastTo S5000x128 (shapeCast S5000x1 x1 Gen.shapeCasts_S5000x1_S5000x1) Gen.broadcasts_S5000x1_S5000x128 (ix2 p k))
        * x2 (ix2 k q) = _
    rw [shapeCast_self, shapeCast_self, Cert.LibKeepdims.broadcastTo_a1_ab_apply]
  · show broadcastTo S5000x128 (shapeCast S1x128 x3 Gen.shapeCasts_S1x128_S1x128) Gen.broadcasts_S1x128_S5000x128 (ix2 p q) = _
    rw [shapeCast_self, broadcastTo_1b_ab_apply]
  · exact Ideal.ofBits_zero_f32

/-- The read-out body's stored value at row `p`, feature `q` of the block. -/
theorem readout_apply (x0 : Vec Ideal S400x128 .f32) (x1 : Vec Ideal S128x64 .f32) (x2 : Vec Ideal S1x64 .f32)
    (p : Fin 400) (q : Fin 64) :
    Gen.k2_pay1 x0 x1 x2 (ix2 p q) = Cert.Layers.affine (M := 400) (K := 128) (N := 64) x0 x1 x2 (ix2 p q) := by
  rw [Cert.Layers.affine_apply]
  unfold Gen.k2_pay1
  refine congrArg₂ (· + ·) ?_ ?_
  · refine (Cert.Lib.matmul_plain_zero_apply none _ _ p q).trans (Finset.sum_congr rfl fun k _ => ?_)
    show shapeCast S400x128 x0 Gen.shapeCasts_S400x128_S400x128 (ix2 p k) * x1 (ix2 k q) = _
    rw [shapeCast_self]
  · show broadcastTo S400x64 (shapeCast S1x64 x2 Gen.shapeCasts_S1x64_S1x64) Gen.broadcasts_S1x64_S400x64 (ix2 p q) = _
    rw [shapeCast_self, broadcastTo_1b_ab_apply]

end Cert.KernelIdeal.Bodies

end
-- ==== Proof.Region0.lean ====
/-
  The first convolution launch: its output array, whole.

  The launch walks 20 grid points; at point `t` it stages rows `5000 t … 5000 t + 4999` of the aggregated features and of
  the per-node factor column, the whole weight matrix and the whole bias row, runs the body and writes the 5000 result
  rows back to rows `5000 t …` of the output array. The body's result is the layer's arithmetic of its blocks, and the
  layer's arithmetic at row `r` reads only row `r` of the features and of the factor column; so what point `t` writes back
  is block `t` of ONE array, the layer's arithmetic of the whole input arrays. The 20 blocks cover the 100000 rows, hence
  the output array ends holding that array.
-/
import proofs.«110495_j4595615007149_2_alg».proof.Proof.Gen.KernelIdeal.Frame
import proofs.«110495_j4595615007149_2_alg».proof.Proof.Bodies
import Idealize.ShloMosaic.Lib.Pipeline.Value

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every point: the row windows move with the point, the weight and bias windows
    stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer's arithmetic of the arrays the launch finds. -/
def result (c : Dev nD) : S100000x128.Idx → EReal :=
  Cert.Layers.dense (M := 100000) (K := 128) (N := 128) (V c main_v20) (V c main_v8) (V c main_arg4) (V c main_v21)

/-- The body's value at an entry of its block is the layer's arithmetic of the whole arrays at the entry's place in the
    array, when the loaded blocks are the arrays' rows from `r0` on and the whole weight matrix and bias row. -/
theorem point_eq (x0 : Vec Ideal S5000x128 .f32) (x1 : Vec Ideal S5000x1 .f32) (x2 : Vec Ideal S128x128 .f32)
    (x3 : Vec Ideal S1x128 .f32) (A : S100000x128.Idx → EReal) (col : S100000x1.Idx → EReal) (W : S128x128.Idx → EReal)
    (b : S1x128.Idx → EReal) (r0 : Nat) (hr0 : r0 + 5000 ≤ 100000)
    (h0 : ∀ (p : Fin 5000) (k : Fin 128), x0 (ix2 p k) = A (ix2 (⟨r0 + p.val, by omega⟩ : Fin 100000) k))
    (h1 : ∀ (p : Fin 5000), x1 (ix2 p (0 : Fin 1)) = col (ix2 (⟨r0 + p.val, by omega⟩ : Fin 100000) (0 : Fin 1)))
    (h2 : ∀ (k q : Fin 128), x2 (ix2 k q) = W (ix2 k q))
    (h3 : ∀ (q : Fin 128), x3 (ix2 (0 : Fin 1) q) = b (ix2 (0 : Fin 1) q))
    (y : S5000x128.Idx) (i : S100000x128.Idx) (hi0 : (i 0).val = r0 + (y 0).val) (hi1 : (i 1).val = (y 1).val) :
    k0_pay1 x0 x1 x2 x3 y = Cert.Layers.dense (M := 100000) (K := 128) (N := 128) A col W b i := by
  obtain ⟨p, q, rfl⟩ : ∃ (p : Fin 5000) (q : Fin 128), y = ix2 p q := ⟨y 0, y 1, eq_ix2 y⟩
  have hi : i = ix2 (⟨r0 + p.val, by omega⟩ : Fin 100000) q := by
    refine (eq_ix2 i).trans ?_
    congr 1
    · exact Fin.ext hi0
    · exact Fin.ext hi1
  rw [hi, Bodies.conv0_apply, Cert.Layers.dense_apply, Cert.Layers.dense_apply]
  simp only [h0, h1, h2, h3]

/-- WHAT POINT `t` WRITES BACK is block `t` of `result`. -/
theorem flushed_eq (c : Dev nD) (t : Fin cfg0.N) :
    (dat0 (F := Ideal) V c).flushed 4 t = ((cfg0.win 4).blk t).view.read (Elt Ideal) (result V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41⟩ := idx_facts t
  have ht : t.val < 20 := Nat.lt_of_lt_of_eq t.isLt N_0
  funext j
  refine point_eq (iblk0 V c 0 t) (iblk0 V c 1 t) (iblk0 V c 2 t) (iblk0 V c 3 t) (V c main_v20) (V c main_v8) (V c main_arg4)
    (V c main_v21) (t.val * 5000) (by omega) ?_ ?_ ?_ ?_ j (((cfg0.win 4).blk t).view.emb j) ?_ ?_
  · intro p k
    show V c main_v20 (((cfg0.win 0).blk t).view.emb (ix2 p k)) = _
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · intro p
    show V c main_v8 (((cfg0.win 1).blk t).view.emb (ix2 p (0 : Fin 1))) = _
    refine congrArg _ ?_
    funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega
  · intro k q
    show V c main_arg4 (((cfg0.win 2).blk t).view.emb (ix2 k q)) = _
    refine congrArg _ ?_
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  · intro q
    show V c main_v21 (((cfg0.win 3).blk t).view.emb (ix2 (0 : Fin 1) q)) = _
    refine congrArg _ ?_
    funext a; apply Fin.ext
    match a with
    | ⟨0, _⟩ => show win0_3.index t (0 : Fin 2) * 1 + 1 * 0 = 0; omega
    | ⟨1, _⟩ => show win0_3.index t (1 : Fin 2) * 128 + 1 * q.val = q.val; omega
  · show win0_4.index t (0 : Fin 2) * 5000 + 1 * (j 0).val = t.val * 5000 + (j 0).val; omega
  · show win0_4.index t (1 : Fin 2) * 128 + 1 * (j 1).val = (j 1).val; omega

/-- An index of the array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v22).slice (win0_4.rect t)).set ↔ _
  rw [View.set_slice_whole, Rect.mem_set_unit]
  exact Iff.rfl

/-- THE OUTPUT ARRAY after the launch: the layer's arithmetic of the arrays the launch finds. -/
theorem final (c : Dev nD) : (dat0 (F := Ideal) V c).arrAt 4 cfg0.N = result V c :=
  (dat0 (F := Ideal) V c).arrAt_eq_of_cover 4 (result V c) (fun t _ => flushed_eq V c t) fun i => by
    have hi0 : (i 0).val < 100000 := (i 0).isLt
    have hi1 : (i 1).val < 128 := (i 1).isLt
    have hN : cfg0.N = 20 := N_0
    let t : Fin cfg0.N := ⟨(i 0).val / 5000, by rw [hN]; omega⟩
    obtain ⟨e00, e01, e10, e11, e20, e21, e30, e31, e40, e41⟩ := idx_facts t
    refine ⟨t, flush0_4 t, ?_⟩
    rw [mem_blk]
    intro a
    match a with
    | ⟨0, _⟩ =>
      show win0_4.index t (0 : Fin 2) * 5000 ≤ (i 0).val ∧ (i 0).val < win0_4.index t (0 : Fin 2) * 5000 + 5000
      rw [e40]; show (i 0).val / 5000 * 5000 ≤ (i 0).val ∧ (i 0).val < (i 0).val / 5000 * 5000 + 5000; omega
    | ⟨1, _⟩ =>
      show win0_4.index t (1 : Fin 2) * 128 ≤ (i 1).val ∧ (i 1).val < win0_4.index t (1 : Fin 2) * 128 + 128
      rw [e41]; omega

end Cert.KernelIdeal.Region0

end
-- ==== Proof.Region1.lean ====
/-
  The second convolution launch: its output array, whole.

  The launch walks 20 grid points; at point `t` it stages rows `5000 t … 5000 t + 4999` of the aggregated features and of
  the per-node factor column, the whole weight matrix and the whole bias row, runs the body and writes the 5000 result
  rows back to rows `5000 t …` of the output array. The body's result is the layer's arithmetic of its blocks, and the
  layer's arithmetic at row `r` reads only row `r` of the features and of the factor column; so what point `t` writes back
  is block `t` of ONE array, the layer's arithmetic of the whole input arrays. The 20 blocks cover the 100000 rows, hence
  the output array ends holding that array.
-/
import proofs.«110495_j4595615007149_2_alg».proof.Proof.Gen.KernelIdeal.Frame
import proofs.«110495_j4595615007149_2_alg».proof.Proof.Bodies
import Idealize.ShloMosaic.Lib.Pipeline.Value

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every point: the row windows move with the point, the weight and bias windows
    stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The layer's arithmetic of the arrays the launch finds. -/
def result (c : Dev nD) : S100000x128.Idx → EReal :=
  Cert.Layers.dense (M := 100000) (K := 128) (N := 128) (V c main_v33) (V c main_v8) (V c main_arg6) (V c main_v34)

/-- The body's value at an entry of its block is the layer's arithmetic of the whole arrays at the entry's place in the
    array, when the loaded blocks are the arrays' rows from `r0` on and the whole weight matrix and bias row. -/
theorem point_eq (x0 : Vec Ideal S5000x128 .f32) (x1 : Vec Ideal S5000x1 .f32) (x2 : Vec Ideal S128x128 .f32)
    (x3 : Vec Ideal S1x128 .f32) (A : S100000x128.Idx → EReal) (col : S100000x1.Idx → EReal) (W : S128x128.Idx → EReal)
    (b : S1x128.Idx → EReal) (r0 : Nat) (hr0 : r0 + 5000 ≤ 100000)
    (h0 : ∀ (p : Fin 5000) (k : Fin 128), x0 (ix2 p k) = A (ix2 (⟨r0 + p.val, by omega⟩ : Fin 100000) k))
    (h1 : ∀ (p : Fin 5000), x1 (ix2 p (0 : Fin 1)) = col (ix2 (⟨r0 + p.val, by omega⟩ : Fin 100000) (0 : Fin 1)))
    (h2 : ∀ (k q : Fin 128), x2 (ix2 k q) = W (ix2 k q))
    (h3 : ∀ (q : Fin 128), x3 (ix2 (0 : Fin 1) q) = b (ix2 (0 : Fin 1) q))
    (y : S5000x128.Idx) (i : S100000x128.Idx) (hi0 : (i 0).val = r0 + (y 0).val) (hi1 : (i 1).val = (y 1).val) :
    k1_pay1 x0 x1 x2 x3 y = Cert.Layers.dense (M := 100000) (K := 128) (N := 128) A col W b i := by
  obtain ⟨p, q, rfl⟩ : ∃ (p : Fin 5000) (q : Fin 128), y = ix2 p q := ⟨y 0, y 1, eq_ix2 y⟩
  have hi : i = ix2 (⟨r0 + p.val, by omega⟩ : Fin 100000) q := by
    refine (eq_ix2 i).trans ?_
    congr 1
    · exact Fin.ext hi0
    · exact Fin.ext hi1
  rw [hi, Bodies.conv1_apply, Cert.Layers.dense_apply, Cert.Layers.dense_apply]
  simp only [h0, h1, h2, h3]

/-- WHAT POINT `t` WRITES BACK is block `t` of `result`. -/
theorem flushed_eq (c : Dev nD) (t : Fin cfg1.N) :
    (dat1 (F := Ideal) V c).flushed 4 t = ((cfg1.win 4).blk t).view.read (Elt Ideal) (result V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41⟩ := idx_facts t
  have ht : t.val < 20 := Nat.lt_of_lt_of_eq t.isLt N_1
  funext j
  refine point_eq (iblk1 V c 0 t) (iblk1 V c 1 t) (iblk1 V c 2 t) (iblk1 V c 3 t) (V c main_v33) (V c main_v8) (V c main_arg6)
    (V c main_v34) (t.val * 5000) (by omega) ?_ ?_ ?_ ?_ j (((cfg1.win 4).blk t).view.emb j) ?_ ?_
  · intro p k
    show V c main_v33 (((cfg1.win 0).blk t).view.emb (ix2 p k)) = _
    refine congrArg _ ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  · intro p
    show V c main_v8 (((cfg1.win 1).blk t).view.emb (ix2 p (0 : Fin 1))) = _
    refine congrArg _ ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  · intro k q
    show V c main_arg6 (((cfg1.win 2).blk t).view.emb (ix2 k q)) = _
    refine congrArg _ ?_
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  · intro q
    show V c main_v34 (((cfg1.win 3).blk t).view.emb (ix2 (0 : Fin 1) q)) = _
    refine congrArg _ ?_
    funext a; apply Fin.ext
    match a with
    | ⟨0, _⟩ => show win1_3.index t (0 : Fin 2) * 1 + 1 * 0 = 0; omega
    | ⟨1, _⟩ => show win1_3.index t (1 : Fin 2) * 128 + 1 * q.val = q.val; omega
  · show win1_4.index t (0 : Fin 2) * 5000 + 1 * (j 0).val = t.val * 5000 + (j 0).val; omega
  · show win1_4.index t (1 : Fin 2) * 128 + 1 * (j 1).val = (j 1).val; omega

/-- An index of the array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v35).slice (win1_4.rect t)).set ↔ _
  rw [View.set_slice_whole, Rect.mem_set_unit]
  exact Iff.rfl

/-- THE OUTPUT ARRAY after the launch: the layer's arithmetic of the arrays the launch finds. -/
theorem final (c : Dev nD) : (dat1 (F := Ideal) V c).arrAt 4 cfg1.N = result V c :=
  (dat1 (F := Ideal) V c).arrAt_eq_of_cover 4 (result V c) (fun t _ => flushed_eq V c t) fun i => by
    have hi0 : (i 0).val < 100000 := (i 0).isLt
    have hi1 : (i 1).val < 128 := (i 1).isLt
    have hN : cfg1.N = 20 := N_1
    let t : Fin cfg1.N := ⟨(i 0).val / 5000, by rw [hN]; omega⟩
    obtain ⟨e00, e01, e10, e11, e20, e21, e30, e31, e40, e41⟩ := idx_facts t
    refine ⟨t, flush1_4 t, ?_⟩
    rw [mem_blk]
    intro a
    match a with
    | ⟨0, _⟩ =>
      show win1_4.index t (0 : Fin 2) * 5000 ≤ (i 0).val ∧ (i 0).val < win1_4.index t (0 : Fin 2) * 5000 + 5000
      rw [e40]; show (i 0).val / 5000 * 5000 ≤ (i 0).val ∧ (i 0).val < (i 0).val / 5000 * 5000 + 5000; omega
    | ⟨1, _⟩ =>
      show win1_4.index t (1 : Fin 2) * 128 ≤ (i 1).val ∧ (i 1).val < win1_4.index t (1 : Fin 2) * 128 + 128
      rw [e41]; omega

end Cert.KernelIdeal.Region1

end
-- ==== Proof.Region2.lean ====
/-
  The read-out launch: its output array, whole.

  The launch walks 5 grid points; at point `t` it stages rows `400 t … 400 t + 399` of the pooled features, the whole
  weight matrix and the whole bias row, runs the body and writes the 400 result rows back to rows `400 t …` of the output
  array. The body's result is the read-out's arithmetic of its blocks, which at row `r` reads only row `r` of the pooled
  features; so what point `t` writes back is block `t` of ONE array, the read-out's arithmetic of the whole input arrays.
  The 5 blocks cover the 2000 rows, hence the output array ends holding that array.
-/
import proofs.«110495_j4595615007149_2_alg».proof.Proof.Gen.KernelIdeal.Frame
import proofs.«110495_j4595615007149_2_alg».proof.Proof.Bodies
import Idealize.ShloMosaic.Lib.Pipeline.Value

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every point: the row windows move with the point, the weight and bias windows
    stay at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The read-out's arithmetic of the arrays the launch finds. -/
def result (c : Dev nD) : S2000x64.Idx → EReal :=
  Cert.Layers.affine (M := 2000) (K := 128) (N := 64) (V c main_v63) (V c main_arg8) (V c main_v64)

/-- The body's value at an entry of its block is the read-out's arithmetic of the whole arrays at the entry's place in
    the array, when the loaded blocks are the pooled rows from `r0` on and the whole weight matrix and bias row. -/
theorem point_eq (x0 : Vec Ideal S400x128 .f32) (x1 : Vec Ideal S128x64 .f32) (x2 : Vec Ideal S1x64 .f32)
    (A : S2000x128.Idx → EReal) (W : S128x64.Idx → EReal) (b : S1x64.Idx → EReal) (r0 : Nat) (hr0 : r0 + 400 ≤ 2000)
    (h0 : ∀ (p : Fin 400) (k : Fin 128), x0 (ix2 p k) = A (ix2 (⟨r0 + p.val, by omega⟩ : Fin 2000) k))
    (h1 : ∀ (k : Fin 128) (q : Fin 64), x1 (ix2 k q) = W (ix2 k q))
    (h2 : ∀ (q : Fin 64), x2 (ix2 (0 : Fin 1) q) = b (ix2 (0 : Fin 1) q))
    (y : S400x64.Idx) (i : S2000x64.Idx) (hi0 : (i 0).val = r0 + (y 0).val) (hi1 : (i 1).val = (y 1).val) :
    k2_pay1 x0 x1 x2 y = Cert.Layers.affine (M := 2000) (K := 128) (N := 64) A W b i := by
  obtain ⟨p, q, rfl⟩ : ∃ (p : Fin 400) (q : Fin 64), y = ix2 p q := ⟨y 0, y 1, eq_ix2 y⟩
  have hi : i = ix2 (⟨r0 + p.val, by omega⟩ : Fin 2000) q := by
    refine (eq_ix2 i).trans ?_
    congr 1
    · exact Fin.ext hi0
    · exact Fin.ext hi1
  rw [hi, Bodies.readout_apply, Cert.Layers.affine_apply, Cert.Layers.affine_apply]
  simp only [h0, h1, h2]

/-- WHAT POINT `t` WRITES BACK is block `t` of `result`. -/
theorem flushed_eq (c : Dev nD) (t : Fin cfg2.N) :
    (dat2 (F := Ideal) V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S400x128) hz, View.ld_unit_zero (S := S128x64) hz, View.ld_unit_zero (S := S1x64) hz]
  obtain ⟨e00, e01, e10, e11, e20, e21, e30, e31⟩ := idx_facts t
  have ht : t.val < 5 := Nat.lt_of_lt_of_eq t.isLt N_2
  funext j
  refine point_eq (iblk2 V c 0 t) (iblk2 V c 1 t) (iblk2 V c 2 t) (V c main_v63) (V c main_arg8) (V c main_v64)
    (t.val * 400) (by omega) ?_ ?_ ?_ j (((cfg2.win 3).blk t).view.emb j) ?_ ?_
  · intro p k
    show V c main_v63 (((cfg2.win 0).blk t).view.emb (ix2 p k)) = _
    refine congrArg _ ?_
    funext a; apply Fin.ext
    match a with
    | ⟨0, _⟩ => show win2_0.index t (0 : Fin 2) * 400 + 1 * p.val = t.val * 400 + p.val; omega
    | ⟨1, _⟩ => show win2_0.index t (1 : Fin 2) * 128 + 1 * k.val = k.val; omega
  · intro k q
    show V c main_arg8 (((cfg2.win 1).blk t).view.emb (ix2 k q)) = _
    refine congrArg _ ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  · intro q
    show V c main_v64 (((cfg2.win 2).blk t).view.emb (ix2 (0 : Fin 1) q)) = _
    refine congrArg _ ?_
    funext a; apply Fin.ext
    match a with
    | ⟨0, _⟩ => show win2_2.index t (0 : Fin 2) * 1 + 1 * 0 = 0; omega
    | ⟨1, _⟩ => show win2_2.index t (1 : Fin 2) * 64 + 1 * q.val = q.val; omega
  · show win2_3.index t (0 : Fin 2) * 400 + 1 * (j 0).val = t.val * 400 + (j 0).val; omega
  · show win2_3.index t (1 : Fin 2) * 64 + 1 * (j 1).val = (j 1).val; omega

/-- An index of the array is in point `t`'s block iff each coordinate is in the block's range on its axis. -/
theorem mem_blk (t : Fin cfg2.N) (i : S2000x64.Idx) :
    i ∈ ((cfg2.win 3).blk t).view.set ↔ ∀ a : Fin 2, win2_3.index t a * S400x64.size a ≤ (i a).val ∧ (i a).val < win2_3.index t a * S400x64.size a + S400x64.size a := by
  show i ∈ ((View.whole main_v65).slice (win2_3.rect t)).set ↔ _
  rw [View.set_slice_whole, Rect.mem_set_unit]
  exact Iff.rfl

/-- THE OUTPUT ARRAY after the launch: the read-out's arithmetic of the arrays the launch finds. -/
theorem final (c : Dev nD) : (dat2 (F := Ideal) V c).arrAt 3 cfg2.N = result V c :=
  (dat2 (F := Ideal) V c).arrAt_eq_of_cover 3 (result V c) (fun t _ => flushed_eq V c t) fun i => by
    have hi0 : (i 0).val < 2000 := (i 0).isLt
    have hi1 : (i 1).val < 64 := (i 1).isLt
    have hN : cfg2.N = 5 := N_2
    let t : Fin cfg2.N := ⟨(i 0).val / 400, by rw [hN]; omega⟩
    obtain ⟨e00, e01, e10, e11, e20, e21, e30, e31⟩ := idx_facts t
    refine ⟨t, flush2_3 t, ?_⟩
    rw [mem_blk]
    intro a
    match a with
    | ⟨0, _⟩ =>
      show win2_3.index t (0 : Fin 2) * 400 ≤ (i 0).val ∧ (i 0).val < win2_3.index t (0 : Fin 2) * 400 + 400
      rw [e30]; show (i 0).val / 400 * 400 ≤ (i 0).val ∧ (i 0).val < (i 0).val / 400 * 400 + 400; omega
    | ⟨1, _⟩ =>
      show win2_3.index t (1 : Fin 2) * 64 ≤ (i 1).val ∧ (i 1).val < win2_3.index t (1 : Fin 2) * 64 + 64
      rw [e31]; omega

end Cert.KernelIdeal.Region2

end
-- ==== Proof.KWalk.lean ====
/-
  The kernel program's buffers at the boundaries of its run, read back to the launch contents.

  The run is: a stretch of array operations (the in-degree factor, the first gather and per-node sum), the first
  convolution launch, a second stretch (the second gather and sum), the second launch, a third stretch (the graph
  number of every node, the per-graph mean), the read-out launch. Each stretch's results are the compositions of its
  operations (the pieces named in `Net`), each launch's output array is its layer's arithmetic of its input arrays, and
  a buffer that a stretch or a launch does not write keeps its contents. Walking the boundaries in order expresses the
  result buffer's final contents by the launch contents of the ten arguments.
-/
import proofs.«110495_j4595615007149_2_alg».proof.Proof.Gen.KernelIdeal.Frame
import proofs.«110495_j4595615007149_2_alg».proof.Proof.KNet
import proofs.«110495_j4595615007149_2_alg».proof.Proof.Region0
import proofs.«110495_j4595615007149_2_alg».proof.Proof.Region1
import proofs.«110495_j4595615007149_2_alg».proof.Proof.Region2
import Idealize.ShloMosaic.Lib.StableHlo.Run

noncomputable section

namespace Cert.KernelIdeal.Walk

open Cert.KernelIdeal Cert.KernelIdeal.Gen Idealize.ShloMosaic Idealize.ShloMosaic.TcCoe Idealize.SL.Sem
open Idealize.ShloMosaic.StableHlo

/-! ## The three stretches of array operations, from any contents `V` -/

section Stretches

variable (V : Valuation τ sig (Elt Ideal))

theorem first_main_v20 : StableHlo.after hostOps0 V (Proc.devRef .tc main_v20)
    = Net.aggK (F := Ideal) (Net.narrow (F := Ideal) (V (Proc.devRef .tc main_arg0))) (V (Proc.devRef .tc main_arg1)) (V (Proc.devRef .tc main_arg2)) := by
  after_results_simp
  rfl

theorem first_main_v8 : StableHlo.after hostOps0 V (Proc.devRef .tc main_v8) = Net.invCol (F := Ideal) (V (Proc.devRef .tc main_arg2)) := by
  after_results_simp
  rfl

theorem first_main_v21 : StableHlo.after hostOps0 V (Proc.devRef .tc main_v21) = Net.biasRow (F := Ideal) (V (Proc.devRef .tc main_arg5)) := by
  after_results_simp
  rfl

theorem first_main_arg1 : StableHlo.after hostOps0 V (Proc.devRef .tc main_arg1) = V (Proc.devRef .tc main_arg1) := by
  after_results_simp

theorem first_main_arg2 : StableHlo.after hostOps0 V (Proc.devRef .tc main_arg2) = V (Proc.devRef .tc main_arg2) := by
  after_results_simp

theorem first_main_arg3 : StableHlo.after hostOps0 V (Proc.devRef .tc main_arg3) = V (Proc.devRef .tc main_arg3) := by
  after_results_simp

theorem first_main_arg4 : StableHlo.after hostOps0 V (Proc.devRef .tc main_arg4) = V (Proc.devRef .tc main_arg4) := by
  after_results_simp

theorem first_main_arg6 : StableHlo.after hostOps0 V (Proc.devRef .tc main_arg6) = V (Proc.devRef .tc main_arg6) := by
  after_results_simp

theorem first_main_arg7 : StableHlo.after hostOps0 V (Proc.devRef .tc main_arg7) = V (Proc.devRef .tc main_arg7) := by
  after_results_simp

theorem first_main_arg8 : StableHlo.after hostOps0 V (Proc.devRef .tc main_arg8) = V (Proc.devRef .tc main_arg8) := by
  after_results_simp

theorem first_main_arg9 : StableHlo.after hostOps0 V (Proc.devRef .tc main_arg9) = V (Proc.devRef .tc main_arg9) := by
  after_results_simp

theorem second_main_v33 : StableHlo.after hostOps1 V (Proc.devRef .tc main_v33)
    = Net.aggK (F := Ideal) (V (Proc.devRef .tc main_v22)) (V (Proc.devRef .tc main_arg1)) (V (Proc.devRef .tc main_arg2)) := by
  after_results_simp
  rfl

theorem second_main_v34 : StableHlo.after hostOps1 V (Proc.devRef .tc main_v34) = Net.biasRow (F := Ideal) (V (Proc.devRef .tc main_arg7)) := by
  after_results_simp
  rfl

theorem second_main_v8 : StableHlo.after hostOps1 V (Proc.devRef .tc main_v8) = V (Proc.devRef .tc main_v8) := by
  after_results_simp

theorem second_main_arg3 : StableHlo.after hostOps1 V (Proc.devRef .tc main_arg3) = V (Proc.devRef .tc main_arg3) := by
  after_results_simp

theorem second_main_arg6 : StableHlo.after hostOps1 V (Proc.devRef .tc main_arg6) = V (Proc.devRef .tc main_arg6) := by
  after_results_simp

theorem second_main_arg8 : StableHlo.after hostOps1 V (Proc.devRef .tc main_arg8) = V (Proc.devRef .tc main_arg8) := by
  after_results_simp

theorem second_main_arg9 : StableHlo.after hostOps1 V (Proc.devRef .tc main_arg9) = V (Proc.devRef .tc main_arg9) := by
  after_results_simp

theorem third_rolled : StableHlo.after hostOps2_1 V (Proc.devRef .tc main_v37) = Net.rolled (V (Proc.devRef .tc main_arg3)) := by
  after_results_simp
  rfl

theorem third_patched : StableHlo.after hostOps2_2 V (Proc.devRef .tc main_v39) = Net.patched (V (Proc.devRef .tc main_v37)) := by
  after_results_simp
  rfl

attribute [local irreducible] Host.reduce Host.gather Host.scatter Host.scatterAdd Host.reduceWindow concatenate extractStridedSlice broadcastInDim select cmpi addi andi iotaInDim in
theorem third_cumsum2000 : StableHlo.after hostOps2_3 V (Proc.devRef .tc main_v40) = Net.cumsum2000 (V (Proc.devRef .tc main_v39)) := by
  after_results_simp
  unfold Net.cumsum2000
  rfl

theorem third_marksOf : StableHlo.after hostOps2_4 V (Proc.devRef .tc main_v49) = Net.marksOf (V (Proc.devRef .tc main_v40)) := by
  after_results_simp
  rfl

attribute [local irreducible] Host.reduce Host.gather Host.scatter Host.scatterAdd Host.reduceWindow concatenate extractStridedSlice broadcastInDim select cmpi addi andi iotaInDim in
theorem third_cumsum100000 : StableHlo.after hostOps2_5 V (Proc.devRef .tc main_v50) = Net.cumsum100000 (V (Proc.devRef .tc main_v49)) := by
  after_results_simp
  unfold Net.cumsum100000
  rfl

theorem third_dec : StableHlo.after hostOps2_6 V (Proc.devRef .tc main_v52) = Net.dec (V (Proc.devRef .tc main_v50)) := by
  after_results_simp
  rfl

attribute [local irreducible] Host.reduce Host.gather Host.scatter Host.scatterAdd Host.reduceWindow concatenate extractStridedSlice broadcastInDim select cmpi addi andi iotaInDim in
theorem third_taken : StableHlo.after hostOps2_7 V (Proc.devRef .tc main_v53) = Net.taken (V (Proc.devRef .tc main_v36)) (V (Proc.devRef .tc main_v52)) := by
  after_results_simp
  unfold Net.taken Net.takeOk Net.takeRows
  rfl

theorem third_main_v63 : StableHlo.after hostOps2_8 V (Proc.devRef .tc main_v63)
    = Net.pooledK (F := Ideal) (V (Proc.devRef .tc main_v35)) (V (Proc.devRef .tc main_v53)) (V (Proc.devRef .tc main_arg3)) := by
  after_results_simp
  rfl

theorem third_main_v64 : StableHlo.after hostOps2_8 V (Proc.devRef .tc main_v64) = Net.biasRowOut (F := Ideal) (V (Proc.devRef .tc main_arg9)) := by
  after_results_simp
  rfl

/-- The table `0 … 1999` is still there when the look-up reads it. -/
theorem third_iota : (StableHlo.after hostOps2_6 (StableHlo.after hostOps2_5 (StableHlo.after hostOps2_4 (StableHlo.after hostOps2_3 (StableHlo.after hostOps2_2 (StableHlo.after hostOps2_1 (StableHlo.after hostOps2 V))))))) (Proc.devRef .tc main_v36) = iotaInDim S2000 32 0 := by
  after_results_simp

theorem third_keeps_main_v35 : (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 V)))))))) (Proc.devRef .tc main_v35) = V (Proc.devRef .tc main_v35) := by
  after_results_simp

theorem third_keeps_main_arg3 : (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 V)))))))) (Proc.devRef .tc main_arg3) = V (Proc.devRef .tc main_arg3) := by
  after_results_simp

theorem third_keeps_main_arg9 : (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 V)))))))) (Proc.devRef .tc main_arg9) = V (Proc.devRef .tc main_arg9) := by
  after_results_simp

theorem third_keeps_main_arg8 : (StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 V))))))))) (Proc.devRef .tc main_arg8) = V (Proc.devRef .tc main_arg8) := by
  after_results_simp

theorem third_first_main_arg3 : StableHlo.after hostOps2 V (Proc.devRef .tc main_arg3) = V (Proc.devRef .tc main_arg3) := by
  after_results_simp

end Stretches

variable (m : (ℓ : Loc nD τ sig) → Buf (Elt Ideal) ℓ) (ρ : Dev nD → PrngReg) (c : Dev nD)

/-! ## Before the first launch -/

theorem W1_main_v20 : W1 m ρ c (Proc.devRef .tc main_v20)
    = Net.aggK (F := Ideal) (Net.narrow (F := Ideal) (m ((c : Thread nD τ).loc main_arg0))) (m ((c : Thread nD τ).loc main_arg1)) (m ((c : Thread nD τ).loc main_arg2)) :=
  first_main_v20 (W0 m ρ c)

theorem W1_main_v8 : W1 m ρ c (Proc.devRef .tc main_v8) = Net.invCol (F := Ideal) (m ((c : Thread nD τ).loc main_arg2)) := first_main_v8 (W0 m ρ c)

theorem W1_main_v21 : W1 m ρ c (Proc.devRef .tc main_v21) = Net.biasRow (F := Ideal) (m ((c : Thread nD τ).loc main_arg5)) := first_main_v21 (W0 m ρ c)

theorem W1_main_arg1 : W1 m ρ c (Proc.devRef .tc main_arg1) = m ((c : Thread nD τ).loc main_arg1) := first_main_arg1 (W0 m ρ c)

theorem W1_main_arg2 : W1 m ρ c (Proc.devRef .tc main_arg2) = m ((c : Thread nD τ).loc main_arg2) := first_main_arg2 (W0 m ρ c)

theorem W1_main_arg3 : W1 m ρ c (Proc.devRef .tc main_arg3) = m ((c : Thread nD τ).loc main_arg3) := first_main_arg3 (W0 m ρ c)

theorem W1_main_arg4 : W1 m ρ c (Proc.devRef .tc main_arg4) = m ((c : Thread nD τ).loc main_arg4) := first_main_arg4 (W0 m ρ c)

theorem W1_main_arg6 : W1 m ρ c (Proc.devRef .tc main_arg6) = m ((c : Thread nD τ).loc main_arg6) := first_main_arg6 (W0 m ρ c)

theorem W1_main_arg7 : W1 m ρ c (Proc.devRef .tc main_arg7) = m ((c : Thread nD τ).loc main_arg7) := first_main_arg7 (W0 m ρ c)

theorem W1_main_arg8 : W1 m ρ c (Proc.devRef .tc main_arg8) = m ((c : Thread nD τ).loc main_arg8) := first_main_arg8 (W0 m ρ c)

theorem W1_main_arg9 : W1 m ρ c (Proc.devRef .tc main_arg9) = m ((c : Thread nD τ).loc main_arg9) := first_main_arg9 (W0 m ρ c)

/-- The first layer's output, by the launch contents of the arguments. -/
def h1 : FVec Ideal S100000x128 .bf16 :=
  Cert.Layers.dense (M := 100000) (K := 128) (N := 128)
    (Net.aggK (F := Ideal) (Net.narrow (F := Ideal) (m ((c : Thread nD τ).loc main_arg0))) (m ((c : Thread nD τ).loc main_arg1)) (m ((c : Thread nD τ).loc main_arg2)))
    (Net.invCol (F := Ideal) (m ((c : Thread nD τ).loc main_arg2))) (m ((c : Thread nD τ).loc main_arg4)) (Net.biasRow (F := Ideal) (m ((c : Thread nD τ).loc main_arg5)))

/-- The second layer's output. -/
def h2 : FVec Ideal S100000x128 .bf16 :=
  Cert.Layers.dense (M := 100000) (K := 128) (N := 128)
    (Net.aggK (F := Ideal) (h1 m c) (m ((c : Thread nD τ).loc main_arg1)) (m ((c : Thread nD τ).loc main_arg2)))
    (Net.invCol (F := Ideal) (m ((c : Thread nD τ).loc main_arg2))) (m ((c : Thread nD τ).loc main_arg6)) (Net.biasRow (F := Ideal) (m ((c : Thread nD τ).loc main_arg7)))

/-! ## After the first launch -/

theorem W2_main_v22 : W2 m ρ c (Proc.devRef .tc main_v22) = h1 m c := by
  refine ((W2_arr m ρ c 4).trans (Region0.final (V1 m ρ) c)).trans ?_
  unfold Region0.result h1
  rw [show V1 m ρ c main_v20 = _ from W1_main_v20 m ρ c, show V1 m ρ c main_v8 = _ from W1_main_v8 m ρ c,
    show V1 m ρ c main_arg4 = _ from W1_main_arg4 m ρ c, show V1 m ρ c main_v21 = _ from W1_main_v21 m ρ c]

theorem W2_main_v8 : W2 m ρ c (Proc.devRef .tc main_v8) = Net.invCol (F := Ideal) (m ((c : Thread nD τ).loc main_arg2)) :=
  ((W2_arr m ρ c 1).trans (((dat0 (V1 m ρ) c).arrAt_in 1 rfl _).trans (A_eq0 (V1 m ρ) c 1))).trans (W1_main_v8 m ρ c)

theorem W2_main_arg1 : W2 m ρ c (Proc.devRef .tc main_arg1) = m ((c : Thread nD τ).loc main_arg1) :=
  (W2_of_ne m ρ c main_arg1 (by decide)).trans (W1_main_arg1 m ρ c)

theorem W2_main_arg2 : W2 m ρ c (Proc.devRef .tc main_arg2) = m ((c : Thread nD τ).loc main_arg2) :=
  (W2_of_ne m ρ c main_arg2 (by decide)).trans (W1_main_arg2 m ρ c)

theorem W2_main_arg3 : W2 m ρ c (Proc.devRef .tc main_arg3) = m ((c : Thread nD τ).loc main_arg3) :=
  (W2_of_ne m ρ c main_arg3 (by decide)).trans (W1_main_arg3 m ρ c)

theorem W2_main_arg6 : W2 m ρ c (Proc.devRef .tc main_arg6) = m ((c : Thread nD τ).loc main_arg6) :=
  (W2_of_ne m ρ c main_arg6 (by decide)).trans (W1_main_arg6 m ρ c)

theorem W2_main_arg7 : W2 m ρ c (Proc.devRef .tc main_arg7) = m ((c : Thread nD τ).loc main_arg7) :=
  (W2_of_ne m ρ c main_arg7 (by decide)).trans (W1_main_arg7 m ρ c)

theorem W2_main_arg8 : W2 m ρ c (Proc.devRef .tc main_arg8) = m ((c : Thread nD τ).loc main_arg8) :=
  (W2_of_ne m ρ c main_arg8 (by decide)).trans (W1_main_arg8 m ρ c)

theorem W2_main_arg9 : W2 m ρ c (Proc.devRef .tc main_arg9) = m ((c : Thread nD τ).loc main_arg9) :=
  (W2_of_ne m ρ c main_arg9 (by decide)).trans (W1_main_arg9 m ρ c)

/-! ## Before the second launch -/

theorem W3_main_v33 : W3 m ρ c (Proc.devRef .tc main_v33)
    = Net.aggK (F := Ideal) (h1 m c) (m ((c : Thread nD τ).loc main_arg1)) (m ((c : Thread nD τ).loc main_arg2)) := by
  rw [← W2_main_v22 m ρ c, ← W2_main_arg1 m ρ c, ← W2_main_arg2 m ρ c]
  exact second_main_v33 (W2 m ρ c)

theorem W3_main_v34 : W3 m ρ c (Proc.devRef .tc main_v34) = Net.biasRow (F := Ideal) (m ((c : Thread nD τ).loc main_arg7)) := by
  rw [← W2_main_arg7 m ρ c]
  exact second_main_v34 (W2 m ρ c)

theorem W3_main_v8 : W3 m ρ c (Proc.devRef .tc main_v8) = Net.invCol (F := Ideal) (m ((c : Thread nD τ).loc main_arg2)) :=
  (second_main_v8 (W2 m ρ c)).trans (W2_main_v8 m ρ c)

theorem W3_main_arg3 : W3 m ρ c (Proc.devRef .tc main_arg3) = m ((c : Thread nD τ).loc main_arg3) := (second_main_arg3 (W2 m ρ c)).trans (W2_main_arg3 m ρ c)

theorem W3_main_arg6 : W3 m ρ c (Proc.devRef .tc main_arg6) = m ((c : Thread nD τ).loc main_arg6) := (second_main_arg6 (W2 m ρ c)).trans (W2_main_arg6 m ρ c)

theorem W3_main_arg8 : W3 m ρ c (Proc.devRef .tc main_arg8) = m ((c : Thread nD τ).loc main_arg8) := (second_main_arg8 (W2 m ρ c)).trans (W2_main_arg8 m ρ c)

theorem W3_main_arg9 : W3 m ρ c (Proc.devRef .tc main_arg9) = m ((c : Thread nD τ).loc main_arg9) := (second_main_arg9 (W2 m ρ c)).trans (W2_main_arg9 m ρ c)

/-! ## After the second launch -/

theorem W4_main_v35 : W4 m ρ c (Proc.devRef .tc main_v35) = h2 m c := by
  refine ((W4_arr m ρ c 4).trans (Region1.final (V3 m ρ) c)).trans ?_
  unfold Region1.result h2
  rw [show V3 m ρ c main_v33 = _ from W3_main_v33 m ρ c, show V3 m ρ c main_v8 = _ from W3_main_v8 m ρ c,
    show V3 m ρ c main_arg6 = _ from W3_main_arg6 m ρ c, show V3 m ρ c main_v34 = _ from W3_main_v34 m ρ c]

theorem W4_main_arg3 : W4 m ρ c (Proc.devRef .tc main_arg3) = m ((c : Thread nD τ).loc main_arg3) :=
  (W4_of_ne m ρ c main_arg3 (by decide)).trans (W3_main_arg3 m ρ c)

theorem W4_main_arg8 : W4 m ρ c (Proc.devRef .tc main_arg8) = m ((c : Thread nD τ).loc main_arg8) :=
  (W4_of_ne m ρ c main_arg8 (by decide)).trans (W3_main_arg8 m ρ c)

theorem W4_main_arg9 : W4 m ρ c (Proc.devRef .tc main_arg9) = m ((c : Thread nD τ).loc main_arg9) :=
  (W4_of_ne m ρ c main_arg9 (by decide)).trans (W3_main_arg9 m ρ c)

/-! ## Before and after the read-out launch -/

/-- The graph number of every node, when the pooling reads it. -/
theorem W12_main_v53 : W12 m ρ c (Proc.devRef .tc main_v53) = Net.gidx (m ((c : Thread nD τ).loc main_arg3)) := by
  have e5 : W5 m ρ c (Proc.devRef .tc main_arg3) = m ((c : Thread nD τ).loc main_arg3) := (third_first_main_arg3 (W4 m ρ c)).trans (W4_main_arg3 m ρ c)
  have e6 : W6 m ρ c (Proc.devRef .tc main_v37) = Net.rolled (m ((c : Thread nD τ).loc main_arg3)) := (third_rolled (W5 m ρ c)).trans (by rw [e5])
  have e7 : W7 m ρ c (Proc.devRef .tc main_v39) = Net.patched (Net.rolled (m ((c : Thread nD τ).loc main_arg3))) := (third_patched (W6 m ρ c)).trans (by rw [e6])
  have e8 : W8 m ρ c (Proc.devRef .tc main_v40) = Net.starts (m ((c : Thread nD τ).loc main_arg3)) := (third_cumsum2000 (W7 m ρ c)).trans (by rw [e7]; rfl)
  have e9 : W9 m ρ c (Proc.devRef .tc main_v49) = Net.marks (m ((c : Thread nD τ).loc main_arg3)) := (third_marksOf (W8 m ρ c)).trans (by rw [e8]; rfl)
  have e10 : W10 m ρ c (Proc.devRef .tc main_v50) = Net.cumsum100000 (Net.marks (m ((c : Thread nD τ).loc main_arg3))) := (third_cumsum100000 (W9 m ρ c)).trans (by rw [e9])
  have e11 : W11 m ρ c (Proc.devRef .tc main_v52) = Net.pos (m ((c : Thread nD τ).loc main_arg3)) := (third_dec (W10 m ρ c)).trans (by rw [e10]; rfl)
  have e36 : W11 m ρ c (Proc.devRef .tc main_v36) = iotaInDim S2000 32 0 := third_iota (W4 m ρ c)
  exact (third_taken (W11 m ρ c)).trans (by rw [e36, e11]; rfl)

theorem W13_main_v63 : W13 m ρ c (Proc.devRef .tc main_v63)
    = Net.pooledK (F := Ideal) (h2 m c) (Net.gidx (m ((c : Thread nD τ).loc main_arg3))) (m ((c : Thread nD τ).loc main_arg3)) := by
  refine (third_main_v63 (W12 m ρ c)).trans ?_
  rw [W12_main_v53 m ρ c, show W12 m ρ c (Proc.devRef .tc main_v35) = _ from (third_keeps_main_v35 (W4 m ρ c)).trans (W4_main_v35 m ρ c),
    show W12 m ρ c (Proc.devRef .tc main_arg3) = _ from (third_keeps_main_arg3 (W4 m ρ c)).trans (W4_main_arg3 m ρ c)]

theorem W13_main_v64 : W13 m ρ c (Proc.devRef .tc main_v64) = Net.biasRowOut (F := Ideal) (m ((c : Thread nD τ).loc main_arg9)) := by
  refine (third_main_v64 (W12 m ρ c)).trans ?_
  rw [show W12 m ρ c (Proc.devRef .tc main_arg9) = _ from (third_keeps_main_arg9 (W4 m ρ c)).trans (W4_main_arg9 m ρ c)]

theorem W13_main_arg8 : W13 m ρ c (Proc.devRef .tc main_arg8) = m ((c : Thread nD τ).loc main_arg8) :=
  (third_keeps_main_arg8 (W4 m ρ c)).trans (W4_main_arg8 m ρ c)

/-- The result buffer's final contents, by the launch contents of the arguments. -/
theorem W14_main_v65 : W14 m ρ c (Proc.devRef .tc main_v65)
    = Cert.Layers.affine (M := 2000) (K := 128) (N := 64)
        (Net.pooledK (F := Ideal) (h2 m c) (Net.gidx (m ((c : Thread nD τ).loc main_arg3))) (m ((c : Thread nD τ).loc main_arg3))) (m ((c : Thread nD τ).loc main_arg8))
        (Net.biasRowOut (F := Ideal) (m ((c : Thread nD τ).loc main_arg9))) := by
  refine ((W14_arr m ρ c 3).trans (Region2.final (V13 m ρ) c)).trans ?_
  unfold Region2.result
  rw [show V13 m ρ c main_v63 = _ from W13_main_v63 m ρ c, show V13 m ρ c main_arg8 = _ from W13_main_arg8 m ρ c,
    show V13 m ρ c main_v64 = _ from W13_main_v64 m ρ c]

end Cert.KernelIdeal.Walk

end
-- ==== Proof.RefNet.lean ====
/-
  The reference network as a composition of whole-array functions.

  A two-layer graph convolution with in-degree normalisation followed by mean pooling per graph and a linear read-out:
  * `invDeg recv` — per node, `1 / max (in-degree, 1)`, the in-degree counted by adding a one per edge at the edge's receiver;
  * `srcRows send` — the sender indices as a column of row numbers (a negative index wrapped by the number of nodes);
  * `agg h send recv` — per node, the sum over its incoming edges of the sender's feature row (gather the rows, add them
    at the receivers);
  * `layer h send recv W b` — `max ((agg h · invDeg) W + b, 0)`;
  * `gidx nn` — the graph number of every node, from the per-graph node counts (the start offsets by an exclusive
    running sum, a mark at each start, a running sum of the marks, minus one, looked up in `0 … 1999`);
  * `pooled h nn` — per graph, the sum of its nodes' rows divided by `max (node count, 1)`;
  * `out …` — `pooled (layer (layer x)) Wout + bout`.
  Each definition is the composition of array operations the reference program applies, in its order.
-/
import proofs.«110495_j4595615007149_2_alg».proof.ReferenceIdeal
import proofs.«110495_j4595615007149_2_alg».proof.Proof.Gen.ReferenceIdeal

noncomputable section

namespace Cert.ReferenceIdeal.Net

open Cert.ReferenceIdeal Cert.ReferenceIdeal.Facts₀ Idealize.ShloMosaic

variable {F : FTy → Type} [FloatOps F]

/-- Per node, `1 / max (in-degree, 1)`. -/
def invDeg (recv : IVec S1600000 32) : FVec F S100000 .f32 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 recv)
        (broadcastInDim S1600000 ![] bcast_S_S1600000 (constant S_ .f32 0x3F800000#32)))
      (broadcastInDim S100000 ![] bcast_S_S100000 (constant S_ .f32 0x3F800000#32)))

/-- The sender indices as a column of row numbers: a negative index is wrapped by the number of nodes. -/
def srcRows (send : IVec S1600000 32) : IVec S1600000x1 32 :=
  broadcastInDim S1600000x1 ![0] bcast_S1600000_S1600000x1_0
    (select (cmpi .slt send (broadcastInDim S1600000 ![] bcast_S_S1600000 (constantI S_ 32 0#32)))
      (addi send (broadcastInDim S1600000 ![] bcast_S_S1600000 (constantI S_ 32 100000#32))) send)

/-- Per node, the sum over its incoming edges of the sender's feature row. -/
def agg (h : FVec F S100000x128 .f32) (send recv : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 recv)
    (Host.gather gather_S100000x128_S1600000x1_S1600000x128_1_0_n_n_0_1_1128 h (srcRows send))

/-- The per-node factor broadcast along the feature axis. -/
def invDegWide (recv : IVec S1600000 32) : FVec F S100000x128 .f32 :=
  broadcastInDim S100000x128 ![0, 1] bcast_S100000x1_S100000x128_0_1
    (broadcastInDim S100000x1 ![0] bcast_S100000_S100000x1_0 (invDeg recv))

/-- One convolution layer: aggregate, normalise, project, add the bias, clamp at zero. -/
def layer (h : FVec F S100000x128 .f32) (send recv : IVec S1600000 32) (W : FVec F S128x128 .f32) (b : FVec F S128 .f32) :
    FVec F S100000x128 .f32 :=
  maximumf
    (addf (Host.dotGeneral dot_S100000x128_S128x128_S100000x128_1_0_0_1_n_n none (mulf (agg h send recv) (invDegWide recv)) W)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The node counts rotated by one place: the last count first. -/
def rolled (nn : IVec S2000 32) : IVec S2000 32 :=
  concatenate S2000 0 [⟨S1, extractStridedSlice S1 ![1999] nn slices_S2000_S1_1999⟩,
    ⟨S1999, extractStridedSlice S1999 ![0] nn slices_S2000_S1999_0⟩] concatenates_S1_S1999_S2000_d0

/-- Each graph's first node: the running sum of the rotated counts with a zero written in front. -/
def starts (nn : IVec S2000 32) : IVec S2000 32 :=
  Host.reduceWindow IntOp.addi ![2000] ![1] ![1999] ![0]
    (Host.scatter scatter_S2000_S1_S__n_0_0_0 (fun _ b => b) (rolled nn)
      (broadcastInDim S1 ![] bcast_S_S1 (constantI S_ 32 0#32)) (constantI S_ 32 0#32))
    (broadcastInDim S_ ![] bcast_S_S_ (constantI S_ 32 0#32)) reduceWindows_S2000_S2000_w2000s1p1999_0 h_S_

/-- The start offsets as a column of positions (a negative one wrapped by the number of nodes). -/
def startRows (nn : IVec S2000 32) : IVec S2000x1 32 :=
  broadcastInDim S2000x1 ![0] bcast_S2000_S2000x1_0
    (select (cmpi .slt (starts nn) (broadcastInDim S2000 ![] bcast_S_S2000 (constantI S_ 32 0#32)))
      (addi (starts nn) (broadcastInDim S2000 ![] bcast_S_S2000 (constantI S_ 32 100000#32))) (starts nn))

/-- A one added at every graph's first node. -/
def marks (nn : IVec S2000 32) : IVec S100000 32 :=
  Host.scatter scatter_S100000_S2000x1_S2000_n_0_0_1 IntOp.addi
    (broadcastInDim S100000 ![] bcast_S_S100000 (constantI S_ 32 0#32)) (startRows nn)
    (broadcastInDim S2000 ![] bcast_S_S2000 (constantI S_ 32 1#32))

/-- The running sum of the marks, minus one: for every node, the position of its graph. -/
def pos (nn : IVec S2000 32) : IVec S100000 32 :=
  subi
    (Host.reduceWindow IntOp.addi ![100000] ![1] ![99999] ![0] (marks nn)
      (broadcastInDim S_ ![] bcast_S_S_ (constantI S_ 32 0#32)) reduceWindows_S100000_S100000_w100000s1p99999_0 h_S_)
    (broadcastInDim S100000 ![] bcast_S_S100000 (constantI S_ 32 1#32))

/-- The positions as a column of row numbers into a table of 2000 (a negative one wrapped by 2000). -/
def takeRows (p : IVec S100000 32) : IVec S100000x1 32 :=
  broadcastInDim S100000x1 ![0] bcast_S100000_S100000x1_0
    (select (cmpi .slt p (broadcastInDim S100000 ![] bcast_S_S100000 (constantI S_ 32 0#32)))
      (addi p (broadcastInDim S100000 ![] bcast_S_S100000 (constantI S_ 32 2000#32))) p)

/-- Which positions are inside the table. -/
def takeOk (p : IVec S100000 32) : IVec S100000 1 :=
  Host.reduce IntOp.andi
    (andi (cmpi .sge (takeRows p) (broadcastInDim S100000x1 ![] bcast_S_S100000x1 (constantI S_ 32 0#32)))
      (cmpi .sle (takeRows p)
        (broadcastInDim S100000x1 ![0, 1] bcast_S1x1_S100000x1_0_1 (broadcastInDim S1x1 ![1] bcast_S1_S1x1_1 (constantI S1 32 1999#32)))))
    (constantI S_ 1 1#1) reducesTo_S100000x1_S100000_d1 h_S_

/-- The table looked up at the positions, the fill value where a position is outside. -/
def taken (tbl : IVec S2000 32) (p : IVec S100000 32) : IVec S100000 32 :=
  select (takeOk p) (Host.gather gather_S2000_S100000x1_S100000_n_0_n_n_0_1_1 tbl (takeRows p))
    (broadcastInDim S100000 ![] bcast_S_S100000 (constantI S_ 32 2147483648#32))

/-- The graph number of every node. -/
def gidx (nn : IVec S2000 32) : IVec S100000 32 := taken (iotaInDim S2000 32 0) (pos nn)

/-- Per graph, `max (node count, 1)` broadcast along the feature axis. -/
def denom (nn : IVec S2000 32) : FVec F S2000x128 .f32 :=
  broadcastInDim S2000x128 ![0, 1] bcast_S2000x1_S2000x128_0_1
    (broadcastInDim S2000x1 ![0] bcast_S2000_S2000x1_0
      (maximumf (sitofp .f32 nn) (broadcastInDim S2000 ![] bcast_S_S2000 (constant S_ .f32 0x3F800000#32))))

/-- Per graph, the sum of its nodes' feature rows. -/
def pooledSum (h : FVec F S100000x128 .f32) (nn : IVec S2000 32) : FVec F S2000x128 .f32 :=
  Host.scatterAdd scatter_S2000x128_S100000x1_S100000x128_1_0_0_1
    (broadcastInDim S2000x128 ![] bcast_S_S2000x128 (constant S_ .f32 0x00000000#32))
    (broadcastInDim S100000x1 ![0] bcast_S100000_S100000x1_0 (gidx nn)) h

/-- Per graph, the mean of its nodes' feature rows. -/
def pooled (h : FVec F S100000x128 .f32) (nn : IVec S2000 32) : FVec F S2000x128 .f32 :=
  Host.divf (pooledSum h nn) (denom nn)

/-- The read-out: the pooled features projected, plus the bias. -/
def readout (p : FVec F S2000x128 .f32) (Wo : FVec F S128x64 .f32) (bo : FVec F S64 .f32) : FVec F S2000x64 .f32 :=
  addf (Host.dotGeneral dot_S2000x128_S128x64_S2000x64_1_0_0_1_n_n none p Wo)
    (broadcastInDim S2000x64 ![0, 1] bcast_S1x64_S2000x64_0_1 (broadcastInDim S1x64 ![1] bcast_S64_S1x64_1 bo))

/-- The whole network. -/
def out (x : FVec F S100000x128 .f32) (send recv : IVec S1600000 32) (nn : IVec S2000 32)
    (W1 : FVec F S128x128 .f32) (b1 : FVec F S128 .f32) (W2 : FVec F S128x128 .f32) (b2 : FVec F S128 .f32)
    (Wo : FVec F S128x64 .f32) (bo : FVec F S64 .f32) : FVec F S2000x64 .f32 :=
  readout (pooled (layer (layer x send recv W1 b1) send recv W2 b2) nn) Wo bo

end Cert.ReferenceIdeal.Net

end
-- ==== Proof.Bridge.lean ====
/-
  The kernel program's pieces and the reference network's are the same functions.

  Between its launches the kernel program applies the array operations the reference applies (the in-degree factor,
  the gather of sender rows and their sum at the receivers, the graph number of every node, the per-graph mean): the
  same operations with the same dimension numbers in the same order, on feature arrays held in a narrower format and
  widened again — the identity on the extended reals. And the reference's way of writing a layer — multiply by the
  factor vector broadcast twice, a general dot product, add the bias vector broadcast twice, clamp by a maximum with
  a broadcast zero — is the layer's arithmetic `Layers.dense` that a convolution launch computes, with the factor
  vector read as a column and the bias vector as a row; likewise the read-out is `Layers.affine`. So the network
  assembled from the kernel program's pieces is the reference network.
-/
import proofs.«110495_j4595615007149_2_alg».proof.Proof.KNet
import proofs.«110495_j4595615007149_2_alg».proof.Proof.RefNet
import proofs.«110495_j4595615007149_2_alg».proof.Proof.Dense

noncomputable section

namespace Cert.Bridge

open Idealize.ShloMosaic Idealize.ShloMosaic.ValueIdx

/-! ## The shared pieces -/

theorem invDeg_eq (recv : IVec Cert.ReferenceIdeal.S1600000 32) :
    Cert.KernelIdeal.Net.invDeg (F := Ideal) recv = Cert.ReferenceIdeal.Net.invDeg recv := rfl

theorem aggK_eq (h : FVec Ideal Cert.ReferenceIdeal.S100000x128 .f32) (send recv : IVec Cert.ReferenceIdeal.S1600000 32) :
    Cert.KernelIdeal.Net.aggK (F := Ideal) h send recv = Cert.ReferenceIdeal.Net.agg h send recv := rfl

theorem gidx_eq (nn : IVec Cert.ReferenceIdeal.S2000 32) :
    Cert.KernelIdeal.Net.gidx nn = Cert.ReferenceIdeal.Net.gidx nn := rfl

theorem pooledK_eq (h : FVec Ideal Cert.ReferenceIdeal.S100000x128 .f32) (nn : IVec Cert.ReferenceIdeal.S2000 32) :
    Cert.KernelIdeal.Net.pooledK (F := Ideal) h (Cert.ReferenceIdeal.Net.gidx nn) nn = Cert.ReferenceIdeal.Net.pooled h nn := rfl

/-! ## The reference's layer and read-out are the launches' arithmetic -/

theorem layer_eq (h : FVec Ideal Cert.ReferenceIdeal.S100000x128 .f32) (send recv : IVec Cert.ReferenceIdeal.S1600000 32)
    (W : FVec Ideal Cert.ReferenceIdeal.S128x128 .f32) (b : FVec Ideal Cert.ReferenceIdeal.S128 .f32)
    (hc1 : (⟨1, ![100000]⟩ : Shape).ShapeCasts ⟨2, ![100000, 1]⟩) (hc2 : (⟨1, ![128]⟩ : Shape).ShapeCasts ⟨2, ![1, 128]⟩) :
    Cert.ReferenceIdeal.Net.layer (F := Ideal) h send recv W b
      = Cert.Layers.dense (M := 100000) (K := 128) (N := 128) (Cert.ReferenceIdeal.Net.agg h send recv)
          (shapeCast ⟨2, ![100000, 1]⟩ (Cert.ReferenceIdeal.Net.invDeg (F := Ideal) recv) hc1) W (shapeCast ⟨2, ![1, 128]⟩ b hc2) := by
  unfold Cert.ReferenceIdeal.Net.layer Cert.ReferenceIdeal.Net.invDegWide Cert.Layers.dense
  rw [Cert.Layers.dotGeneral_eq_project (M := 100000) (K := 128) (N := 128)
    Cert.ReferenceIdeal.dot_S100000x128_S128x128_S100000x128_1_0_0_1_n_n rfl none]
  rw [Cert.Layers.mulf_factor_eq_scaleRows (M := 100000) (K := 128) _ _ _ _ hc1]
  exact Cert.Layers.maximumf_bias_eq_addRowClamp (M := 100000) (N := 128) _ _ _ _ _ hc2

theorem readout_eq (p : FVec Ideal Cert.ReferenceIdeal.S2000x128 .f32) (Wo : FVec Ideal Cert.ReferenceIdeal.S128x64 .f32)
    (bo : FVec Ideal Cert.ReferenceIdeal.S64 .f32) (hc : (⟨1, ![64]⟩ : Shape).ShapeCasts ⟨2, ![1, 64]⟩) :
    Cert.ReferenceIdeal.Net.readout (F := Ideal) p Wo bo
      = Cert.Layers.affine (M := 2000) (K := 128) (N := 64) p Wo (shapeCast ⟨2, ![1, 64]⟩ bo hc) := by
  unfold Cert.ReferenceIdeal.Net.readout Cert.Layers.affine
  rw [Cert.Layers.dotGeneral_eq_project (M := 2000) (K := 128) (N := 64)
    Cert.ReferenceIdeal.dot_S2000x128_S128x64_S2000x64_1_0_0_1_n_n rfl none]
  exact Cert.Layers.addf_bias_eq_addRow (M := 2000) (N := 64) _ _ _ _ hc

/-! ## The two networks -/

/-- The network assembled from the kernel program's pieces and its launches' arithmetic is the reference network. -/
theorem net_eq (x : FVec Ideal Cert.ReferenceIdeal.S100000x128 .f32) (send recv : IVec Cert.ReferenceIdeal.S1600000 32)
    (nn : IVec Cert.ReferenceIdeal.S2000 32) (W1 : FVec Ideal Cert.ReferenceIdeal.S128x128 .f32) (b1 : FVec Ideal Cert.ReferenceIdeal.S128 .f32)
    (W2 : FVec Ideal Cert.ReferenceIdeal.S128x128 .f32) (b2 : FVec Ideal Cert.ReferenceIdeal.S128 .f32)
    (Wo : FVec Ideal Cert.ReferenceIdeal.S128x64 .f32) (bo : FVec Ideal Cert.ReferenceIdeal.S64 .f32) :
    Cert.Layers.affine (M := 2000) (K := 128) (N := 64)
        (Cert.KernelIdeal.Net.pooledK (F := Ideal)
          (Cert.Layers.dense (M := 100000) (K := 128) (N := 128)
            (Cert.KernelIdeal.Net.aggK (F := Ideal)
              (Cert.Layers.dense (M := 100000) (K := 128) (N := 128)
                (Cert.KernelIdeal.Net.aggK (F := Ideal) (Cert.KernelIdeal.Net.narrow (F := Ideal) x) send recv)
                (Cert.KernelIdeal.Net.invCol (F := Ideal) recv) W1 (Cert.KernelIdeal.Net.biasRow (F := Ideal) b1))
              send recv)
            (Cert.KernelIdeal.Net.invCol (F := Ideal) recv) W2 (Cert.KernelIdeal.Net.biasRow (F := Ideal) b2))
          (Cert.KernelIdeal.Net.gidx nn) nn)
        Wo (Cert.KernelIdeal.Net.biasRowOut (F := Ideal) bo)
      = Cert.ReferenceIdeal.Net.out (F := Ideal) x send recv nn W1 b1 W2 b2 Wo bo := by
  unfold Cert.ReferenceIdeal.Net.out
  rw [readout_eq _ _ _ Cert.KernelIdeal.Facts₀.shapeCasts_S64_S1x64,
    layer_eq _ _ _ _ _ Cert.KernelIdeal.Facts₀.shapeCasts_S100000_S100000x1 Cert.KernelIdeal.Facts₀.shapeCasts_S128_S1x128,
    layer_eq _ _ _ _ _ Cert.KernelIdeal.Facts₀.shapeCasts_S100000_S100000x1 Cert.KernelIdeal.Facts₀.shapeCasts_S128_S1x128]
  rfl

end Cert.Bridge

end
-- ==== Proof.RefRun.lean ====
/-
  The reference program's run, read back as one composed term.

  The program is a straight line of 125 array operations once each called function's body stands at its call over that
  call's buffers (`ops`, `main_eq`), every one on the TensorCore's references (`ops_sub`). Every weakly fair execution
  therefore terminates with each buffer at the fold of the operations' results over the launch contents. That fold is
  read stretch by stretch — the in-degree factor, the two layers, the start offsets, the positions, the table lookup,
  pooling and read-out — each stretch's result buffer being the matching whole-array function of `Net` of the contents
  it reads, and every buffer a stretch does not write being as it was. Composed, the result buffer holds `Net.out` of
  the ten arguments' launch contents and the arguments are unchanged (`run`). The equalities hold for any float values.
-/
import proofs.«110495_j4595615007149_2_alg».proof.ReferenceIdeal
import proofs.«110495_j4595615007149_2_alg».proof.Proof.Gen.ReferenceIdeal
import proofs.«110495_j4595615007149_2_alg».proof.Proof.RefNet
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 125 operations, in order: a called function's operations stand at its call, over that call's buffers. -/
abbrev ops : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg2 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v4 (broadcastInDim S100000 ![] bcast_S_S100000 : (⟨S_, .f32⟩ : BufTy).Contents (Elt F) → (⟨S100000, .f32⟩ : BufTy).Contents (Elt F)),
    StableHlo.binary main_v3 main_v4 main_v5 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v6 (broadcastInDim S100000 ![] bcast_S_S100000 : (⟨S_, .f32⟩ : BufTy).Contents (Elt F) → (⟨S100000, .f32⟩ : BufTy).Contents (Elt F)),
    StableHlo.binary main_v6 main_v5 main_v7 (Host.divf : (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v8 (broadcastInDim S1600000 ![] bcast_S_S1600000 : (⟨S_, .i32⟩ : BufTy).Contents (Elt F) → (⟨S1600000, .i32⟩ : BufTy).Contents (Elt F)),
    StableHlo.binary main_arg1 main_v8 main_v9 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v10 (broadcastInDim S1600000 ![] bcast_S_S1600000 : (⟨S_, .i32⟩ : BufTy).Contents (Elt F) → (⟨S1600000, .i32⟩ : BufTy).Contents (Elt F)),
    StableHlo.binary main_arg1 main_v10 main_v11 (addi : (⟨S1600000, .i32⟩ : BufTy).Contents (Elt F) → (⟨S1600000, .i32⟩ : BufTy).Contents (Elt F) → (⟨S1600000, .i32⟩ : BufTy).Contents (Elt F)),
    StableHlo.ternary main_v9 main_v11 main_arg1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v12 main_v13 (broadcastInDim S1600000x1 ![0] bcast_S1600000_S1600000x1_0 : (⟨S1600000, .i32⟩ : BufTy).Contents (Elt F) → (⟨S1600000x1, .i32⟩ : BufTy).Contents (Elt F)),
    StableHlo.binary main_arg0 main_v13 main_v14 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v15 (broadcastInDim S100000x128 ![] bcast_S_S100000x128 : (⟨S_, .f32⟩ : BufTy).Contents (Elt F) → (⟨S100000x128, .f32⟩ : BufTy).Contents (Elt F)),
    StableHlo.unary main_arg2 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v7 main_v18 (broadcastInDim S100000x1 ![0] bcast_S100000_S100000x1_0 : (⟨S100000, .f32⟩ : BufTy).Contents (Elt F) → (⟨S100000x1, .f32⟩ : BufTy).Contents (Elt F)),
    StableHlo.unary main_v18 main_v19 (broadcastInDim S100000x128 ![0, 1] bcast_S100000x1_S100000x128_0_1 : (⟨S100000x1, .f32⟩ : BufTy).Contents (Elt F) → (⟨S100000x128, .f32⟩ : BufTy).Contents (Elt F)),
    StableHlo.binary main_v17 main_v19 main_v20 (mulf : (⟨S100000x128, .f32⟩ : BufTy).Contents (Elt F) → (⟨S100000x128, .f32⟩ : BufTy).Contents (Elt F) → (⟨S100000x128, .f32⟩ : BufTy).Contents (Elt F)),
    StableHlo.binary main_v20 main_arg4 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v24 : StableHlo.TRef sig ⟨S100000x128, .f32⟩) main_call0.v0 main_call0.v1 maximumf,
    StableHlo.nullary main_c_5 (constantI S_ 32 0#32),
    StableHlo.unary main_c_5 main_v26 (broadcastInDim S1600000 ![] bcast_S_S1600000 : (⟨S_, .i32⟩ : BufTy).Contents (Elt F) → (⟨S1600000, .i32⟩ : BufTy).Contents (Elt F)),
    StableHlo.binary main_arg1 main_v26 main_v27 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v28 (broadcastInDim S1600000 ![] bcast_S_S1600000 : (⟨S_, .i32⟩ : BufTy).Contents (Elt F) → (⟨S1600000, .i32⟩ : BufTy).Contents (Elt F)),
    StableHlo.binary main_arg1 main_v28 main_v29 (addi : (⟨S1600000, .i32⟩ : BufTy).Contents (Elt F) → (⟨S1600000, .i32⟩ : BufTy).Contents (Elt F) → (⟨S1600000, .i32⟩ : BufTy).Contents (Elt F)),
    StableHlo.ternary main_v27 main_v29 main_arg1 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v30 main_v31 (broadcastInDim S1600000x1 ![0] bcast_S1600000_S1600000x1_0 : (⟨S1600000, .i32⟩ : BufTy).Contents (Elt F) → (⟨S1600000x1, .i32⟩ : BufTy).Contents (Elt F)),
    StableHlo.binary main_v25 main_v31 main_v32 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v33 (broadcastInDim S100000x128 ![] bcast_S_S100000x128 : (⟨S_, .f32⟩ : BufTy).Contents (Elt F) → (⟨S100000x128, .f32⟩ : BufTy).Contents (Elt F)),
    StableHlo.unary main_arg2 main_v34 (broadcastInDim S1600000x1 ![0] bcast_S1600000_S1600000x1_0 : (⟨S1600000, .i32⟩ : BufTy).Contents (Elt F) → (⟨S1600000x1, .i32⟩ : BufTy).Contents (Elt F)),
    StableHlo.ternary main_v33 main_v34 main_v32 main_v35 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v7 main_v36 (broadcastInDim S100000x1 ![0] bcast_S100000_S100000x1_0 : (⟨S100000, .f32⟩ : BufTy).Contents (Elt F) → (⟨S100000x1, .f32⟩ : BufTy).Contents (Elt F)),
    StableHlo.unary main_v36 main_v37 (broadcastInDim S100000x128 ![0, 1] bcast_S100000x1_S100000x128_0_1 : (⟨S100000x1, .f32⟩ : BufTy).Contents (Elt F) → (⟨S100000x128, .f32⟩ : BufTy).Contents (Elt F)),
    StableHlo.binary main_v35 main_v37 main_v38 (mulf : (⟨S100000x128, .f32⟩ : BufTy).Contents (Elt F) → (⟨S100000x128, .f32⟩ : BufTy).Contents (Elt F) → (⟨S100000x128, .f32⟩ : BufTy).Contents (Elt F)),
    StableHlo.binary main_v38 main_arg6 main_v39 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v42 : StableHlo.TRef sig ⟨S100000x128, .f32⟩) main_call1.v0 main_call1.v1 maximumf,
    StableHlo.nullary main_v44 (iotaInDim S2000 32 0),
    StableHlo.TRef.unary (.of main_arg3 : StableHlo.TRef sig ⟨S2000, .i32⟩) main_call2.v0 (extractStridedSlice S1 ![1999] · slices_S2000_S1_1999),
    StableHlo.TRef.unary (.of main_arg3 : StableHlo.TRef sig ⟨S2000, .i32⟩) main_call2.v1 (extractStridedSlice S1999 ![0] · slices_S2000_S1999_0),
    StableHlo.TRef.binary main_call2.v0 main_call2.v1 main_call2.v2 (fun a b => concatenate S2000 0 [⟨S1, a⟩, ⟨S1999, b⟩] concatenates_S1_S1999_S2000_d0),
    StableHlo.nullary main_c_8 (constantI S_ 32 0#32),
    StableHlo.unary main_c_8 main_v46 (broadcastInDim S1 ![] bcast_S_S1 : (⟨S_, .i32⟩ : BufTy).Contents (Elt F) → (⟨S1, .i32⟩ : BufTy).Contents (Elt F)),
    StableHlo.nullary main_c_9 (constantI S_ 32 0#32),
    StableHlo.ternary main_v45 main_v46 main_c_9 main_v47 ((fun x i u => Host.scatter scatter_S2000_S1_S__n_0_0_0 (fun _ b => b) x i u) : (⟨S2000, .i32⟩ : BufTy).Contents (Elt F) → (⟨S1, .i32⟩ : BufTy).Contents (Elt F) → (⟨S_, .i32⟩ : BufTy).Contents (Elt F) → (⟨S2000, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v47 : StableHlo.TRef sig ⟨S2000, .i32⟩) main_call3.call0.v0 main_call3.call0.v1 (fun x v => Host.reduceWindow IntOp.addi ![2000] ![1] ![1999] ![0] x v reduceWindows_S2000_S2000_w2000s1p1999_0 h_S_),
    StableHlo.nullary main_c_10 (constantI S_ 32 0#32),
    StableHlo.unary main_c_10 main_v49 (broadcastInDim S100000 ![] bcast_S_S100000 : (⟨S_, .i32⟩ : BufTy).Contents (Elt F) → (⟨S100000, .i32⟩ : BufTy).Contents (Elt F)),
    StableHlo.nullary main_c_11 (constantI S_ 32 0#32),
    StableHlo.unary main_c_11 main_v50 (broadcastInDim S2000 ![] bcast_S_S2000 : (⟨S_, .i32⟩ : BufTy).Contents (Elt F) → (⟨S2000, .i32⟩ : BufTy).Contents (Elt F)),
    StableHlo.binary main_v48 main_v50 main_v51 (cmpi .slt : (⟨S2000, .i32⟩ : BufTy).Contents (Elt F) → (⟨S2000, .i32⟩ : BufTy).Contents (Elt F) → (⟨S2000, .i1⟩ : BufTy).Contents (Elt F)),
    StableHlo.nullary main_c_12 (constantI S_ 32 100000#32),
    StableHlo.unary main_c_12 main_v52 (broadcastInDim S2000 ![] bcast_S_S2000 : (⟨S_, .i32⟩ : BufTy).Contents (Elt F) → (⟨S2000, .i32⟩ : BufTy).Contents (Elt F)),
    StableHlo.binary main_v48 main_v52 main_v53 (addi : (⟨S2000, .i32⟩ : BufTy).Contents (Elt F) → (⟨S2000, .i32⟩ : BufTy).Contents (Elt F) → (⟨S2000, .i32⟩ : BufTy).Contents (Elt F)),
    StableHlo.ternary main_v51 main_v53 main_v48 main_v54 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v54 main_v55 (broadcastInDim S2000x1 ![0] bcast_S2000_S2000x1_0 : (⟨S2000, .i32⟩ : BufTy).Contents (Elt F) → (⟨S2000x1, .i32⟩ : BufTy).Contents (Elt F)),
    StableHlo.nullary main_c_13 (constantI S_ 32 1#32),
    StableHlo.unary main_c_13 main_v56 (broadcastInDim S2000 ![] bcast_S_S2000 : (⟨S_, .i32⟩ : BufTy).Contents (Elt F) → (⟨S2000, .i32⟩ : BufTy).Contents (Elt F)),
    StableHlo.ternary main_v49 main_v55 main_v56 main_v57 ((fun x i u => Host.scatter scatter_S100000_S2000x1_S2000_n_0_0_1 IntOp.addi x i u) : (⟨S100000, .i32⟩ : BufTy).Contents (Elt F) → (⟨S2000x1, .i32⟩ : BufTy).Contents (Elt F) → (⟨S2000, .i32⟩ : BufTy).Contents (Elt F) → (⟨S100000, .i32⟩ : BufTy).Contents (Elt F)),
    StableHlo.TRef.nullary main_call4.call0.c (constantI S_ 32 0#32),
    StableHlo.TRef.unary main_call4.call0.c main_call4.call0.v0 (broadcastInDim S_ ![] bcast_S_S_),
    StableHlo.TRef.binary (.of main_v57 : StableHlo.TRef sig ⟨S100000, .i32⟩) main_call4.call0.v0 main_call4.call0.v1 (fun x v => Host.reduceWindow IntOp.addi ![100000] ![1] ![99999] ![0] x v reduceWindows_S100000_S100000_w100000s1p99999_0 h_S_),
    StableHlo.nullary main_c_14 (constantI S_ 32 1#32),
    StableHlo.unary main_c_14 main_v59 (broadcastInDim S100000 ![] bcast_S_S100000 : (⟨S_, .i32⟩ : BufTy).Contents (Elt F) → (⟨S100000, .i32⟩ : BufTy).Contents (Elt F)),
    StableHlo.binary main_v58 main_v59 main_v60 (subi : (⟨S100000, .i32⟩ : BufTy).Contents (Elt F) → (⟨S100000, .i32⟩ : BufTy).Contents (Elt F) → (⟨S100000, .i32⟩ : BufTy).Contents (Elt F)),
    StableHlo.TRef.nullary main_call5.c (constantI S_ 32 0#32),
    StableHlo.TRef.unary main_call5.c main_call5.v0 (broadcastInDim S100000 ![] bcast_S_S100000),
    StableHlo.TRef.binary (.of main_v60 : StableHlo.TRef sig ⟨S100000, .i32⟩) main_call5.v0 main_call5.v1 (cmpi .slt),
    StableHlo.TRef.nullary main_call5.c_0 (constantI S_ 32 2000#32),
    StableHlo.TRef.unary main_call5.c_0 main_call5.v2 (broadcastInDim S100000 ![] bcast_S_S100000),
    StableHlo.TRef.binary (.of main_v60 : StableHlo.TRef sig ⟨S100000, .i32⟩) main_call5.v2 main_call5.v3 addi,
    StableHlo.TRef.ternary main_call5.v1 main_call5.v3 (.of main_v60 : StableHlo.TRef sig ⟨S100000, .i32⟩) main_call5.call0.v0 select,
    StableHlo.TRef.unary main_call5.call0.v0 main_call5.v5 (broadcastInDim S100000x1 ![0] bcast_S100000_S100000x1_0),
    StableHlo.TRef.nullary main_call5.c_1 (constantI S1 32 1999#32),
    StableHlo.TRef.nullary main_call5.c_2 (constantI S_ 32 0#32),
    StableHlo.TRef.unary main_call5.c_2 main_call5.v6 (broadcastInDim S100000x1 ![] bcast_S_S100000x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S100000x1 ![0, 1] bcast_S1x1_S100000x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S100000x1_S100000_d1 h_S_),
    StableHlo.TRef.binary (.of main_v44 : StableHlo.TRef sig ⟨S2000, .i32⟩) main_call5.v5 main_call5.v13 (fun x i => Host.gather gather_S2000_S100000x1_S100000_n_0_n_n_0_1_1 x i),
    StableHlo.TRef.nullary main_call5.c_4 (constantI S_ 32 2147483648#32),
    StableHlo.TRef.unary main_call5.c_4 main_call5.v14 (broadcastInDim S100000 ![] bcast_S_S100000),
    StableHlo.TRef.ternary main_call5.v12 main_call5.v13 main_call5.v14 main_call5.v15 select,
    StableHlo.nullary main_cst_15 (constant S_ .f32 0x00000000#32),
    StableHlo.unary main_cst_15 main_v62 (broadcastInDim S2000x128 ![] bcast_S_S2000x128 : (⟨S_, .f32⟩ : BufTy).Contents (Elt F) → (⟨S2000x128, .f32⟩ : BufTy).Contents (Elt F)),
    StableHlo.unary main_v61 main_v63 (broadcastInDim S100000x1 ![0] bcast_S100000_S100000x1_0 : (⟨S100000, .i32⟩ : BufTy).Contents (Elt F) → (⟨S100000x1, .i32⟩ : BufTy).Contents (Elt F)),
    StableHlo.ternary main_v62 main_v63 main_v43 main_v64 ((fun x i u => Host.scatterAdd scatter_S2000x128_S100000x1_S100000x128_1_0_0_1 x i u) : (⟨S2000x128, .f32⟩ : BufTy).Contents (Elt F) → (⟨S100000x1, .i32⟩ : BufTy).Contents (Elt F) → (⟨S100000x128, .f32⟩ : BufTy).Contents (Elt F) → (⟨S2000x128, .f32⟩ : BufTy).Contents (Elt F)),
    StableHlo.unary main_arg3 main_v65 (sitofp .f32 : (⟨S2000, .i32⟩ : BufTy).Contents (Elt F) → (⟨S2000, .f32⟩ : BufTy).Contents (Elt F)),
    StableHlo.nullary main_cst_16 (constant S_ .f32 0x3F800000#32),
    StableHlo.unary main_cst_16 main_v66 (broadcastInDim S2000 ![] bcast_S_S2000 : (⟨S_, .f32⟩ : BufTy).Contents (Elt F) → (⟨S2000, .f32⟩ : BufTy).Contents (Elt F)),
    StableHlo.binary main_v65 main_v66 main_v67 (maximumf : (⟨S2000, .f32⟩ : BufTy).Contents (Elt F) → (⟨S2000, .f32⟩ : BufTy).Contents (Elt F) → (⟨S2000, .f32⟩ : BufTy).Contents (Elt F)),
    StableHlo.unary main_v67 main_v68 (broadcastInDim S2000x1 ![0] bcast_S2000_S2000x1_0 : (⟨S2000, .f32⟩ : BufTy).Contents (Elt F) → (⟨S2000x1, .f32⟩ : BufTy).Contents (Elt F)),
    StableHlo.unary main_v68 main_v69 (broadcastInDim S2000x128 ![0, 1] bcast_S2000x1_S2000x128_0_1 : (⟨S2000x1, .f32⟩ : BufTy).Contents (Elt F) → (⟨S2000x128, .f32⟩ : BufTy).Contents (Elt F)),
    StableHlo.binary main_v64 main_v69 main_v70 (Host.divf : (⟨S2000x128, .f32⟩ : BufTy).Contents (Elt F) → (⟨S2000x128, .f32⟩ : BufTy).Contents (Elt F) → (⟨S2000x128, .f32⟩ : BufTy).Contents (Elt F)),
    StableHlo.binary main_v70 main_arg8 main_v71 ((fun l r => Host.dotGeneral dot_S2000x128_S128x64_S2000x64_1_0_0_1_n_n none l r) : (⟨S2000x128, .f32⟩ : BufTy).Contents (Elt F) → (⟨S128x64, .f32⟩ : BufTy).Contents (Elt F) → (⟨S2000x64, .f32⟩ : BufTy).Contents (Elt F)),
    StableHlo.unary main_arg9 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S2000x64 ![0, 1] bcast_S1x64_S2000x64_0_1 : (⟨S1x64, .f32⟩ : BufTy).Contents (Elt F) → (⟨S2000x64, .f32⟩ : BufTy).Contents (Elt F)),
    StableHlo.binary main_v71 main_v73 main_v74 (addf : (⟨S2000x64, .f32⟩ : BufTy).Contents (Elt F) → (⟨S2000x64, .f32⟩ : BufTy).Contents (Elt F) → (⟨S2000x64, .f32⟩ : BufTy).Contents (Elt F)) ]

set_option maxRecDepth 4096 in
/-- The program is that straight line: each called function's body unfolded at its call, the sequencing reassociated. -/
theorem main_eq (c : Dev nD) : main (F := F) c = seq ops := by
  simp only [main, main_part0, main_part1, fn_relu.body, fn_roll_static.body, fn_cumsum_0.body, fn_cumsum.body, fn_cumsum_2.body,
    fn_cumsum_1.body, fn_where.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., unary_bufs_sub .., ternary_bufs_sub .., unary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

/-! ## The line in stretches -/

/-- Operations 1 … 12: the in-degree factor. -/
abbrev opsA : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg2 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v4 (broadcastInDim S100000 ![] bcast_S_S100000 : (⟨S_, .f32⟩ : BufTy).Contents (Elt F) → (⟨S100000, .f32⟩ : BufTy).Contents (Elt F)),
    StableHlo.binary main_v3 main_v4 main_v5 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v6 (broadcastInDim S100000 ![] bcast_S_S100000 : (⟨S_, .f32⟩ : BufTy).Contents (Elt F) → (⟨S100000, .f32⟩ : BufTy).Contents (Elt F)),
    StableHlo.binary main_v6 main_v5 main_v7 (Host.divf : (⟨S100000, .f32⟩ : BufTy).Contents (Elt F) → (⟨S100000, .f32⟩ : BufTy).Contents (Elt F) → (⟨S100000, .f32⟩ : BufTy).Contents (Elt F)) ]

/-- Operations 13 … 35: the first layer. -/
abbrev opsB : List (HloOp τ sig (Elt F)) :=
  [ StableHlo.nullary main_c (constantI S_ 32 0#32),
    StableHlo.unary main_c main_v8 (broadcastInDim S1600000 ![] bcast_S_S1600000 : (⟨S_, .i32⟩ : BufTy).Contents (Elt F) → (⟨S1600000, .i32⟩ : BufTy).Contents (Elt F)),
    StableHlo.binary main_arg1 main_v8 main_v9 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v10 (broadcastInDim S1600000 ![] bcast_S_S1600000 : (⟨S_, .i32⟩ : BufTy).Contents (Elt F) → (⟨S1600000, .i32⟩ : BufTy).Contents (Elt F)),
    StableHlo.binary main_arg1 main_v10 main_v11 (addi : (⟨S1600000, .i32⟩ : BufTy).Contents (Elt F) → (⟨S1600000, .i32⟩ : BufTy).Contents (Elt F) → (⟨S1600000, .i32⟩ : BufTy).Contents (Elt F)),
    StableHlo.ternary main_v9 main_v11 main_arg1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v12 main_v13 (broadcastInDim S1600000x1 ![0] bcast_S1600000_S1600000x1_0 : (⟨S1600000, .i32⟩ : BufTy).Contents (Elt F) → (⟨S1600000x1, .i32⟩ : BufTy).Contents (Elt F)),
    StableHlo.binary main_arg0 main_v13 main_v14 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v15 (broadcastInDim S100000x128 ![] bcast_S_S100000x128 : (⟨S_, .f32⟩ : BufTy).Contents (Elt F) → (⟨S100000x128, .f32⟩ : BufTy).Contents (Elt F)),
    StableHlo.unary main_arg2 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v7 main_v18 (broadcastInDim S100000x1 ![0] bcast_S100000_S100000x1_0 : (⟨S100000, .f32⟩ : BufTy).Contents (Elt F) → (⟨S100000x1, .f32⟩ : BufTy).Contents (Elt F)),
    StableHlo.unary main_v18 main_v19 (broadcastInDim S100000x128 ![0, 1] bcast_S100000x1_S100000x128_0_1 : (⟨S100000x1, .f32⟩ : BufTy).Contents (Elt F) → (⟨S100000x128, .f32⟩ : BufTy).Contents (Elt F)),
    StableHlo.binary main_v17 main_v19 main_v20 (mulf : (⟨S100000x128, .f32⟩ : BufTy).Contents (Elt F) → (⟨S100000x128, .f32⟩ : BufTy).Contents (Elt F) → (⟨S100000x128, .f32⟩ : BufTy).Contents (Elt F)),
    StableHlo.binary main_v20 main_arg4 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v24 : StableHlo.TRef sig ⟨S100000x128, .f32⟩) main_call0.v0 main_call0.v1 maximumf ]

/-- Operations 36 … 58: the second layer. -/
abbrev opsC : List (HloOp τ sig (Elt F)) :=
  [ StableHlo.nullary main_c_5 (constantI S_ 32 0#32),
    StableHlo.unary main_c_5 main_v26 (broadcastInDim S1600000 ![] bcast_S_S1600000 : (⟨S_, .i32⟩ : BufTy).Contents (Elt F) → (⟨S1600000, .i32⟩ : BufTy).Contents (Elt F)),
    StableHlo.binary main_arg1 main_v26 main_v27 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v28 (broadcastInDim S1600000 ![] bcast_S_S1600000 : (⟨S_, .i32⟩ : BufTy).Contents (Elt F) → (⟨S1600000, .i32⟩ : BufTy).Contents (Elt F)),
    StableHlo.binary main_arg1 main_v28 main_v29 (addi : (⟨S1600000, .i32⟩ : BufTy).Contents (Elt F) → (⟨S1600000, .i32⟩ : BufTy).Contents (Elt F) → (⟨S1600000, .i32⟩ : BufTy).Contents (Elt F)),
    StableHlo.ternary main_v27 main_v29 main_arg1 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v30 main_v31 (broadcastInDim S1600000x1 ![0] bcast_S1600000_S1600000x1_0 : (⟨S1600000, .i32⟩ : BufTy).Contents (Elt F) → (⟨S1600000x1, .i32⟩ : BufTy).Contents (Elt F)),
    StableHlo.binary main_v25 main_v31 main_v32 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v33 (broadcastInDim S100000x128 ![] bcast_S_S100000x128 : (⟨S_, .f32⟩ : BufTy).Contents (Elt F) → (⟨S100000x128, .f32⟩ : BufTy).Contents (Elt F)),
    StableHlo.unary main_arg2 main_v34 (broadcastInDim S1600000x1 ![0] bcast_S1600000_S1600000x1_0 : (⟨S1600000, .i32⟩ : BufTy).Contents (Elt F) → (⟨S1600000x1, .i32⟩ : BufTy).Contents (Elt F)),
    StableHlo.ternary main_v33 main_v34 main_v32 main_v35 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v7 main_v36 (broadcastInDim S100000x1 ![0] bcast_S100000_S100000x1_0 : (⟨S100000, .f32⟩ : BufTy).Contents (Elt F) → (⟨S100000x1, .f32⟩ : BufTy).Contents (Elt F)),
    StableHlo.unary main_v36 main_v37 (broadcastInDim S100000x128 ![0, 1] bcast_S100000x1_S100000x128_0_1 : (⟨S100000x1, .f32⟩ : BufTy).Contents (Elt F) → (⟨S100000x128, .f32⟩ : BufTy).Contents (Elt F)),
    StableHlo.binary main_v35 main_v37 main_v38 (mulf : (⟨S100000x128, .f32⟩ : BufTy).Contents (Elt F) → (⟨S100000x128, .f32⟩ : BufTy).Contents (Elt F) → (⟨S100000x128, .f32⟩ : BufTy).Contents (Elt F)),
    StableHlo.binary main_v38 main_arg6 main_v39 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v42 : StableHlo.TRef sig ⟨S100000x128, .f32⟩) main_call1.v0 main_call1.v1 maximumf ]

/-- Operations 59 … 69: the start offsets. -/
abbrev opsD1 : List (HloOp τ sig (Elt F)) :=
  [ StableHlo.nullary main_v44 (iotaInDim S2000 32 0),
    StableHlo.TRef.unary (.of main_arg3 : StableHlo.TRef sig ⟨S2000, .i32⟩) main_call2.v0 (extractStridedSlice S1 ![1999] · slices_S2000_S1_1999),
    StableHlo.TRef.unary (.of main_arg3 : StableHlo.TRef sig ⟨S2000, .i32⟩) main_call2.v1 (extractStridedSlice S1999 ![0] · slices_S2000_S1999_0),
    StableHlo.TRef.binary main_call2.v0 main_call2.v1 main_call2.v2 (fun a b => concatenate S2000 0 [⟨S1, a⟩, ⟨S1999, b⟩] concatenates_S1_S1999_S2000_d0),
    StableHlo.nullary main_c_8 (constantI S_ 32 0#32),
    StableHlo.unary main_c_8 main_v46 (broadcastInDim S1 ![] bcast_S_S1 : (⟨S_, .i32⟩ : BufTy).Contents (Elt F) → (⟨S1, .i32⟩ : BufTy).Contents (Elt F)),
    StableHlo.nullary main_c_9 (constantI S_ 32 0#32),
    StableHlo.ternary main_v45 main_v46 main_c_9 main_v47 ((fun x i u => Host.scatter scatter_S2000_S1_S__n_0_0_0 (fun _ b => b) x i u) : (⟨S2000, .i32⟩ : BufTy).Contents (Elt F) → (⟨S1, .i32⟩ : BufTy).Contents (Elt F) → (⟨S_, .i32⟩ : BufTy).Contents (Elt F) → (⟨S2000, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v47 : StableHlo.TRef sig ⟨S2000, .i32⟩) main_call3.call0.v0 main_call3.call0.v1 (fun x v => Host.reduceWindow IntOp.addi ![2000] ![1] ![1999] ![0] x v reduceWindows_S2000_S2000_w2000s1p1999_0 h_S_) ]

/-- Operations 70 … 88: the positions. -/
abbrev opsD2 : List (HloOp τ sig (Elt F)) :=
  [ StableHlo.nullary main_c_10 (constantI S_ 32 0#32),
    StableHlo.unary main_c_10 main_v49 (broadcastInDim S100000 ![] bcast_S_S100000 : (⟨S_, .i32⟩ : BufTy).Contents (Elt F) → (⟨S100000, .i32⟩ : BufTy).Contents (Elt F)),
    StableHlo.nullary main_c_11 (constantI S_ 32 0#32),
    StableHlo.unary main_c_11 main_v50 (broadcastInDim S2000 ![] bcast_S_S2000 : (⟨S_, .i32⟩ : BufTy).Contents (Elt F) → (⟨S2000, .i32⟩ : BufTy).Contents (Elt F)),
    StableHlo.binary main_v48 main_v50 main_v51 (cmpi .slt : (⟨S2000, .i32⟩ : BufTy).Contents (Elt F) → (⟨S2000, .i32⟩ : BufTy).Contents (Elt F) → (⟨S2000, .i1⟩ : BufTy).Contents (Elt F)),
    StableHlo.nullary main_c_12 (constantI S_ 32 100000#32),
    StableHlo.unary main_c_12 main_v52 (broadcastInDim S2000 ![] bcast_S_S2000 : (⟨S_, .i32⟩ : BufTy).Contents (Elt F) → (⟨S2000, .i32⟩ : BufTy).Contents (Elt F)),
    StableHlo.binary main_v48 main_v52 main_v53 (addi : (⟨S2000, .i32⟩ : BufTy).Contents (Elt F) → (⟨S2000, .i32⟩ : BufTy).Contents (Elt F) → (⟨S2000, .i32⟩ : BufTy).Contents (Elt F)),
    StableHlo.ternary main_v51 main_v53 main_v48 main_v54 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v54 main_v55 (broadcastInDim S2000x1 ![0] bcast_S2000_S2000x1_0 : (⟨S2000, .i32⟩ : BufTy).Contents (Elt F) → (⟨S2000x1, .i32⟩ : BufTy).Contents (Elt F)),
    StableHlo.nullary main_c_13 (constantI S_ 32 1#32),
    StableHlo.unary main_c_13 main_v56 (broadcastInDim S2000 ![] bcast_S_S2000 : (⟨S_, .i32⟩ : BufTy).Contents (Elt F) → (⟨S2000, .i32⟩ : BufTy).Contents (Elt F)),
    StableHlo.ternary main_v49 main_v55 main_v56 main_v57 ((fun x i u => Host.scatter scatter_S100000_S2000x1_S2000_n_0_0_1 IntOp.addi x i u) : (⟨S100000, .i32⟩ : BufTy).Contents (Elt F) → (⟨S2000x1, .i32⟩ : BufTy).Contents (Elt F) → (⟨S2000, .i32⟩ : BufTy).Contents (Elt F) → (⟨S100000, .i32⟩ : BufTy).Contents (Elt F)),
    StableHlo.TRef.nullary main_call4.call0.c (constantI S_ 32 0#32),
    StableHlo.TRef.unary main_call4.call0.c main_call4.call0.v0 (broadcastInDim S_ ![] bcast_S_S_),
    StableHlo.TRef.binary (.of main_v57 : StableHlo.TRef sig ⟨S100000, .i32⟩) main_call4.call0.v0 main_call4.call0.v1 (fun x v => Host.reduceWindow IntOp.addi ![100000] ![1] ![99999] ![0] x v reduceWindows_S100000_S100000_w100000s1p99999_0 h_S_),
    StableHlo.nullary main_c_14 (constantI S_ 32 1#32),
    StableHlo.unary main_c_14 main_v59 (broadcastInDim S100000 ![] bcast_S_S100000 : (⟨S_, .i32⟩ : BufTy).Contents (Elt F) → (⟨S100000, .i32⟩ : BufTy).Contents (Elt F)),
    StableHlo.binary main_v58 main_v59 main_v60 (subi : (⟨S100000, .i32⟩ : BufTy).Contents (Elt F) → (⟨S100000, .i32⟩ : BufTy).Contents (Elt F) → (⟨S100000, .i32⟩ : BufTy).Contents (Elt F)) ]

/-- Operations 89 … 110: the table lookup. -/
abbrev opsD3 : List (HloOp τ sig (Elt F)) :=
  [ StableHlo.TRef.nullary main_call5.c (constantI S_ 32 0#32),
    StableHlo.TRef.unary main_call5.c main_call5.v0 (broadcastInDim S100000 ![] bcast_S_S100000),
    StableHlo.TRef.binary (.of main_v60 : StableHlo.TRef sig ⟨S100000, .i32⟩) main_call5.v0 main_call5.v1 (cmpi .slt),
    StableHlo.TRef.nullary main_call5.c_0 (constantI S_ 32 2000#32),
    StableHlo.TRef.unary main_call5.c_0 main_call5.v2 (broadcastInDim S100000 ![] bcast_S_S100000),
    StableHlo.TRef.binary (.of main_v60 : StableHlo.TRef sig ⟨S100000, .i32⟩) main_call5.v2 main_call5.v3 addi,
    StableHlo.TRef.ternary main_call5.v1 main_call5.v3 (.of main_v60 : StableHlo.TRef sig ⟨S100000, .i32⟩) main_call5.call0.v0 select,
    StableHlo.TRef.unary main_call5.call0.v0 main_call5.v5 (broadcastInDim S100000x1 ![0] bcast_S100000_S100000x1_0),
    StableHlo.TRef.nullary main_call5.c_1 (constantI S1 32 1999#32),
    StableHlo.TRef.nullary main_call5.c_2 (constantI S_ 32 0#32),
    StableHlo.TRef.unary main_call5.c_2 main_call5.v6 (broadcastInDim S100000x1 ![] bcast_S_S100000x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S100000x1 ![0, 1] bcast_S1x1_S100000x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S100000x1_S100000_d1 h_S_),
    StableHlo.TRef.binary (.of main_v44 : StableHlo.TRef sig ⟨S2000, .i32⟩) main_call5.v5 main_call5.v13 (fun x i => Host.gather gather_S2000_S100000x1_S100000_n_0_n_n_0_1_1 x i),
    StableHlo.TRef.nullary main_call5.c_4 (constantI S_ 32 2147483648#32),
    StableHlo.TRef.unary main_call5.c_4 main_call5.v14 (broadcastInDim S100000 ![] bcast_S_S100000),
    StableHlo.TRef.ternary main_call5.v12 main_call5.v13 main_call5.v14 main_call5.v15 select ]

/-- Operations 111 … 125: pooling and read-out. -/
abbrev opsE : List (HloOp τ sig (Elt F)) :=
  [ StableHlo.nullary main_cst_15 (constant S_ .f32 0x00000000#32),
    StableHlo.unary main_cst_15 main_v62 (broadcastInDim S2000x128 ![] bcast_S_S2000x128 : (⟨S_, .f32⟩ : BufTy).Contents (Elt F) → (⟨S2000x128, .f32⟩ : BufTy).Contents (Elt F)),
    StableHlo.unary main_v61 main_v63 (broadcastInDim S100000x1 ![0] bcast_S100000_S100000x1_0 : (⟨S100000, .i32⟩ : BufTy).Contents (Elt F) → (⟨S100000x1, .i32⟩ : BufTy).Contents (Elt F)),
    StableHlo.ternary main_v62 main_v63 main_v43 main_v64 ((fun x i u => Host.scatterAdd scatter_S2000x128_S100000x1_S100000x128_1_0_0_1 x i u) : (⟨S2000x128, .f32⟩ : BufTy).Contents (Elt F) → (⟨S100000x1, .i32⟩ : BufTy).Contents (Elt F) → (⟨S100000x128, .f32⟩ : BufTy).Contents (Elt F) → (⟨S2000x128, .f32⟩ : BufTy).Contents (Elt F)),
    StableHlo.unary main_arg3 main_v65 (sitofp .f32 : (⟨S2000, .i32⟩ : BufTy).Contents (Elt F) → (⟨S2000, .f32⟩ : BufTy).Contents (Elt F)),
    StableHlo.nullary main_cst_16 (constant S_ .f32 0x3F800000#32),
    StableHlo.unary main_cst_16 main_v66 (broadcastInDim S2000 ![] bcast_S_S2000 : (⟨S_, .f32⟩ : BufTy).Contents (Elt F) → (⟨S2000, .f32⟩ : BufTy).Contents (Elt F)),
    StableHlo.binary main_v65 main_v66 main_v67 (maximumf : (⟨S2000, .f32⟩ : BufTy).Contents (Elt F) → (⟨S2000, .f32⟩ : BufTy).Contents (Elt F) → (⟨S2000, .f32⟩ : BufTy).Contents (Elt F)),
    StableHlo.unary main_v67 main_v68 (broadcastInDim S2000x1 ![0] bcast_S2000_S2000x1_0 : (⟨S2000, .f32⟩ : BufTy).Contents (Elt F) → (⟨S2000x1, .f32⟩ : BufTy).Contents (Elt F)),
    StableHlo.unary main_v68 main_v69 (broadcastInDim S2000x128 ![0, 1] bcast_S2000x1_S2000x128_0_1 : (⟨S2000x1, .f32⟩ : BufTy).Contents (Elt F) → (⟨S2000x128, .f32⟩ : BufTy).Contents (Elt F)),
    StableHlo.binary main_v64 main_v69 main_v70 (Host.divf : (⟨S2000x128, .f32⟩ : BufTy).Contents (Elt F) → (⟨S2000x128, .f32⟩ : BufTy).Contents (Elt F) → (⟨S2000x128, .f32⟩ : BufTy).Contents (Elt F)),
    StableHlo.binary main_v70 main_arg8 main_v71 ((fun l r => Host.dotGeneral dot_S2000x128_S128x64_S2000x64_1_0_0_1_n_n none l r) : (⟨S2000x128, .f32⟩ : BufTy).Contents (Elt F) → (⟨S128x64, .f32⟩ : BufTy).Contents (Elt F) → (⟨S2000x64, .f32⟩ : BufTy).Contents (Elt F)),
    StableHlo.unary main_arg9 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S2000x64 ![0, 1] bcast_S1x64_S2000x64_0_1 : (⟨S1x64, .f32⟩ : BufTy).Contents (Elt F) → (⟨S2000x64, .f32⟩ : BufTy).Contents (Elt F)),
    StableHlo.binary main_v71 main_v73 main_v74 (addf : (⟨S2000x64, .f32⟩ : BufTy).Contents (Elt F) → (⟨S2000x64, .f32⟩ : BufTy).Contents (Elt F) → (⟨S2000x64, .f32⟩ : BufTy).Contents (Elt F)) ]

/-- The line is its stretches one after the other. -/
theorem ops_split : (ops : List (HloOp τ sig (Elt F))) = opsA ++ (opsB ++ (opsC ++ (opsD1 ++ (opsD2 ++ (opsD3 ++ opsE))))) := rfl

/-- The contents after two stretches run one after the other: the second's, from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A typed reference's two transports cancel. -/
theorem ofBuf_toBuf {T : BufTy} (x : TRef sig T) (v : T.Contents (Elt F)) : x.ofBuf (x.toBuf v) = v := by
  rcases x with ⟨r, rfl, hd, hs⟩
  rfl

/-! At a buffer whose type is the value's by computation the transport is the identity. -/
theorem ofBuf_v24 (v : FVec F S100000x128 .f32) : (.of main_v24 : StableHlo.TRef sig ⟨S100000x128, .f32⟩).ofBuf (Val := Elt F) v = v := rfl
theorem ofBuf_v42 (v : FVec F S100000x128 .f32) : (.of main_v42 : StableHlo.TRef sig ⟨S100000x128, .f32⟩).ofBuf (Val := Elt F) v = v := rfl
theorem ofBuf_arg3 (v : IVec S2000 32) : (.of main_arg3 : StableHlo.TRef sig ⟨S2000, .i32⟩).ofBuf (Val := Elt F) v = v := rfl
theorem ofBuf_v44 (v : IVec S2000 32) : (.of main_v44 : StableHlo.TRef sig ⟨S2000, .i32⟩).ofBuf (Val := Elt F) v = v := rfl
theorem ofBuf_v47 (v : IVec S2000 32) : (.of main_v47 : StableHlo.TRef sig ⟨S2000, .i32⟩).ofBuf (Val := Elt F) v = v := rfl
theorem ofBuf_v57 (v : IVec S100000 32) : (.of main_v57 : StableHlo.TRef sig ⟨S100000, .i32⟩).ofBuf (Val := Elt F) v = v := rfl
theorem ofBuf_v60 (v : IVec S100000 32) : (.of main_v60 : StableHlo.TRef sig ⟨S100000, .i32⟩).ofBuf (Val := Elt F) v = v := rfl

section Stages

attribute [local irreducible] Host.scatterAdd Host.scatter Host.gather Host.reduce Host.reduceWindow concatenate

/-- After the first stretch the factor buffer holds `1 / max (in-degree, 1)` of the receivers. -/
theorem stageA (V : Valuation τ sig (Elt F)) :
    after opsA V (main_v7 : DevRef τ sig) = Net.invDeg (V (main_arg2 : DevRef τ sig)) := by
  after_results_simp
  rfl

/-- The first layer, from contents whose factor buffer holds the in-degree factor. -/
theorem stageB (V : Valuation τ sig (Elt F)) (x : FVec F S100000x128 .f32) (send recv : IVec S1600000 32)
    (W : FVec F S128x128 .f32) (b : FVec F S128 .f32)
    (h0 : V (main_arg0 : DevRef τ sig) = x) (h1 : V (main_arg1 : DevRef τ sig) = send) (h2 : V (main_arg2 : DevRef τ sig) = recv)
    (h4 : V (main_arg4 : DevRef τ sig) = W) (h5 : V (main_arg5 : DevRef τ sig) = b) (h7 : V (main_v7 : DevRef τ sig) = Net.invDeg recv) :
    after opsB V (main_v25 : DevRef τ sig) = Net.layer x send recv W b := by
  subst h0 h1 h2 h4 h5
  after_results_simp
  simp only [ofBuf_toBuf, ofBuf_v24, ofBuf_v42, ofBuf_arg3, ofBuf_v44, ofBuf_v47, ofBuf_v57, ofBuf_v60]
  rw [h7]
  rfl

/-- The second layer, on the first layer's result. -/
theorem stageC (V : Valuation τ sig (Elt F)) (x : FVec F S100000x128 .f32) (send recv : IVec S1600000 32)
    (W : FVec F S128x128 .f32) (b : FVec F S128 .f32)
    (h0 : V (main_v25 : DevRef τ sig) = x) (h1 : V (main_arg1 : DevRef τ sig) = send) (h2 : V (main_arg2 : DevRef τ sig) = recv)
    (h4 : V (main_arg6 : DevRef τ sig) = W) (h5 : V (main_arg7 : DevRef τ sig) = b) (h7 : V (main_v7 : DevRef τ sig) = Net.invDeg recv) :
    after opsC V (main_v43 : DevRef τ sig) = Net.layer x send recv W b := by
  subst h0 h1 h2 h4 h5
  after_results_simp
  simp only [ofBuf_toBuf, ofBuf_v24, ofBuf_v42, ofBuf_arg3, ofBuf_v44, ofBuf_v47, ofBuf_v57, ofBuf_v60]
  rw [h7]
  rfl

/-- The start offsets of the graphs. -/
theorem stageD1 (V : Valuation τ sig (Elt F)) (nn : IVec S2000 32) (h3 : V (main_arg3 : DevRef τ sig) = nn) :
    after opsD1 V (main_v48 : DevRef τ sig) = Net.starts nn := by
  subst h3
  after_results_simp
  simp only [ofBuf_toBuf, ofBuf_v24, ofBuf_v42, ofBuf_arg3, ofBuf_v44, ofBuf_v47, ofBuf_v57, ofBuf_v60]
  rfl

/-- The table `0 … 1999`. -/
theorem stageD1_iota (V : Valuation τ sig (Elt F)) :
    after opsD1 V (main_v44 : DevRef τ sig) = iotaInDim S2000 32 0 := by
  after_results_simp

/-- The position of every node's graph, from the start offsets. -/
theorem stageD2 (V : Valuation τ sig (Elt F)) (nn : IVec S2000 32) (h48 : V (main_v48 : DevRef τ sig) = Net.starts nn) :
    after opsD2 V (main_v60 : DevRef τ sig) = Net.pos nn := by
  after_results_simp
  simp only [ofBuf_toBuf, ofBuf_v24, ofBuf_v42, ofBuf_arg3, ofBuf_v44, ofBuf_v47, ofBuf_v57, ofBuf_v60]
  rw [h48]
  rfl

/-- The table looked up at the positions. -/
theorem stageD3 (V : Valuation τ sig (Elt F)) (tbl : IVec S2000 32) (p : IVec S100000 32)
    (h44 : V (main_v44 : DevRef τ sig) = tbl) (h60 : V (main_v60 : DevRef τ sig) = p) :
    after opsD3 V (main_v61 : DevRef τ sig) = Net.taken tbl p := by
  subst h44 h60
  after_results_simp
  simp only [ofBuf_toBuf, ofBuf_v24, ofBuf_v42, ofBuf_arg3, ofBuf_v44, ofBuf_v47, ofBuf_v57, ofBuf_v60]
  rfl

/-- Pooling per graph and the read-out, from the second layer's result and the graph numbers. -/
theorem stageE (V : Valuation τ sig (Elt F)) (h : FVec F S100000x128 .f32) (nn : IVec S2000 32)
    (Wo : FVec F S128x64 .f32) (bo : FVec F S64 .f32)
    (h43 : V (main_v43 : DevRef τ sig) = h) (h3 : V (main_arg3 : DevRef τ sig) = nn) (h8 : V (main_arg8 : DevRef τ sig) = Wo)
    (h9 : V (main_arg9 : DevRef τ sig) = bo) (h61 : V (main_v61 : DevRef τ sig) = Net.gidx nn) :
    after opsE V (main_v74 : DevRef τ sig) = Net.readout (Net.pooled h nn) Wo bo := by
  subst h43 h3 h8 h9
  after_results_simp
  rw [h61]
  rfl

end Stages

/-! A stretch leaves a buffer it does not write as it was. -/
theorem keepA_arg0 (V : Valuation τ sig (Elt F)) : after opsA V (main_arg0 : DevRef τ sig) = V (main_arg0 : DevRef τ sig) := by after_results_simp
theorem keepA_arg1 (V : Valuation τ sig (Elt F)) : after opsA V (main_arg1 : DevRef τ sig) = V (main_arg1 : DevRef τ sig) := by after_results_simp
theorem keepA_arg2 (V : Valuation τ sig (Elt F)) : after opsA V (main_arg2 : DevRef τ sig) = V (main_arg2 : DevRef τ sig) := by after_results_simp
theorem keepA_arg3 (V : Valuation τ sig (Elt F)) : after opsA V (main_arg3 : DevRef τ sig) = V (main_arg3 : DevRef τ sig) := by after_results_simp
theorem keepA_arg4 (V : Valuation τ sig (Elt F)) : after opsA V (main_arg4 : DevRef τ sig) = V (main_arg4 : DevRef τ sig) := by after_results_simp
theorem keepA_arg5 (V : Valuation τ sig (Elt F)) : after opsA V (main_arg5 : DevRef τ sig) = V (main_arg5 : DevRef τ sig) := by after_results_simp
theorem keepA_arg6 (V : Valuation τ sig (Elt F)) : after opsA V (main_arg6 : DevRef τ sig) = V (main_arg6 : DevRef τ sig) := by after_results_simp
theorem keepA_arg7 (V : Valuation τ sig (Elt F)) : after opsA V (main_arg7 : DevRef τ sig) = V (main_arg7 : DevRef τ sig) := by after_results_simp
theorem keepA_arg8 (V : Valuation τ sig (Elt F)) : after opsA V (main_arg8 : DevRef τ sig) = V (main_arg8 : DevRef τ sig) := by after_results_simp
theorem keepA_arg9 (V : Valuation τ sig (Elt F)) : after opsA V (main_arg9 : DevRef τ sig) = V (main_arg9 : DevRef τ sig) := by after_results_simp
theorem keepB_arg0 (V : Valuation τ sig (Elt F)) : after opsB V (main_arg0 : DevRef τ sig) = V (main_arg0 : DevRef τ sig) := by after_results_simp
theorem keepB_arg1 (V : Valuation τ sig (Elt F)) : after opsB V (main_arg1 : DevRef τ sig) = V (main_arg1 : DevRef τ sig) := by after_results_simp
theorem keepB_arg2 (V : Valuation τ sig (Elt F)) : after opsB V (main_arg2 : DevRef τ sig) = V (main_arg2 : DevRef τ sig) := by after_results_simp
theorem keepB_arg3 (V : Valuation τ sig (Elt F)) : after opsB V (main_arg3 : DevRef τ sig) = V (main_arg3 : DevRef τ sig) := by after_results_simp
theorem keepB_arg4 (V : Valuation τ sig (Elt F)) : after opsB V (main_arg4 : DevRef τ sig) = V (main_arg4 : DevRef τ sig) := by after_results_simp
theorem keepB_arg5 (V : Valuation τ sig (Elt F)) : after opsB V (main_arg5 : DevRef τ sig) = V (main_arg5 : DevRef τ sig) := by after_results_simp
theorem keepB_arg6 (V : Valuation τ sig (Elt F)) : after opsB V (main_arg6 : DevRef τ sig) = V (main_arg6 : DevRef τ sig) := by after_results_simp
theorem keepB_arg7 (V : Valuation τ sig (Elt F)) : after opsB V (main_arg7 : DevRef τ sig) = V (main_arg7 : DevRef τ sig) := by after_results_simp
theorem keepB_arg8 (V : Valuation τ sig (Elt F)) : after opsB V (main_arg8 : DevRef τ sig) = V (main_arg8 : DevRef τ sig) := by after_results_simp
theorem keepB_arg9 (V : Valuation τ sig (Elt F)) : after opsB V (main_arg9 : DevRef τ sig) = V (main_arg9 : DevRef τ sig) := by after_results_simp
theorem keepB_v7 (V : Valuation τ sig (Elt F)) : after opsB V (main_v7 : DevRef τ sig) = V (main_v7 : DevRef τ sig) := by after_results_simp
theorem keepC_arg0 (V : Valuation τ sig (Elt F)) : after opsC V (main_arg0 : DevRef τ sig) = V (main_arg0 : DevRef τ sig) := by after_results_simp
theorem keepC_arg1 (V : Valuation τ sig (Elt F)) : after opsC V (main_arg1 : DevRef τ sig) = V (main_arg1 : DevRef τ sig) := by after_results_simp
theorem keepC_arg2 (V : Valuation τ sig (Elt F)) : after opsC V (main_arg2 : DevRef τ sig) = V (main_arg2 : DevRef τ sig) := by after_results_simp
theorem keepC_arg3 (V : Valuation τ sig (Elt F)) : after opsC V (main_arg3 : DevRef τ sig) = V (main_arg3 : DevRef τ sig) := by after_results_simp
theorem keepC_arg4 (V : Valuation τ sig (Elt F)) : after opsC V (main_arg4 : DevRef τ sig) = V (main_arg4 : DevRef τ sig) := by after_results_simp
theorem keepC_arg5 (V : Valuation τ sig (Elt F)) : after opsC V (main_arg5 : DevRef τ sig) = V (main_arg5 : DevRef τ sig) := by after_results_simp
theorem keepC_arg6 (V : Valuation τ sig (Elt F)) : after opsC V (main_arg6 : DevRef τ sig) = V (main_arg6 : DevRef τ sig) := by after_results_simp
theorem keepC_arg7 (V : Valuation τ sig (Elt F)) : after opsC V (main_arg7 : DevRef τ sig) = V (main_arg7 : DevRef τ sig) := by after_results_simp
theorem keepC_arg8 (V : Valuation τ sig (Elt F)) : after opsC V (main_arg8 : DevRef τ sig) = V (main_arg8 : DevRef τ sig) := by after_results_simp
theorem keepC_arg9 (V : Valuation τ sig (Elt F)) : after opsC V (main_arg9 : DevRef τ sig) = V (main_arg9 : DevRef τ sig) := by after_results_simp
theorem keepD1_arg0 (V : Valuation τ sig (Elt F)) : after opsD1 V (main_arg0 : DevRef τ sig) = V (main_arg0 : DevRef τ sig) := by after_results_simp
theorem keepD1_arg1 (V : Valuation τ sig (Elt F)) : after opsD1 V (main_arg1 : DevRef τ sig) = V (main_arg1 : DevRef τ sig) := by after_results_simp
theorem keepD1_arg2 (V : Valuation τ sig (Elt F)) : after opsD1 V (main_arg2 : DevRef τ sig) = V (main_arg2 : DevRef τ sig) := by after_results_simp
theorem keepD1_arg3 (V : Valuation τ sig (Elt F)) : after opsD1 V (main_arg3 : DevRef τ sig) = V (main_arg3 : DevRef τ sig) := by after_results_simp
theorem keepD1_arg4 (V : Valuation τ sig (Elt F)) : after opsD1 V (main_arg4 : DevRef τ sig) = V (main_arg4 : DevRef τ sig) := by after_results_simp
theorem keepD1_arg5 (V : Valuation τ sig (Elt F)) : after opsD1 V (main_arg5 : DevRef τ sig) = V (main_arg5 : DevRef τ sig) := by after_results_simp
theorem keepD1_arg6 (V : Valuation τ sig (Elt F)) : after opsD1 V (main_arg6 : DevRef τ sig) = V (main_arg6 : DevRef τ sig) := by after_results_simp
theorem keepD1_arg7 (V : Valuation τ sig (Elt F)) : after opsD1 V (main_arg7 : DevRef τ sig) = V (main_arg7 : DevRef τ sig) := by after_results_simp
theorem keepD1_arg8 (V : Valuation τ sig (Elt F)) : after opsD1 V (main_arg8 : DevRef τ sig) = V (main_arg8 : DevRef τ sig) := by after_results_simp
theorem keepD1_arg9 (V : Valuation τ sig (Elt F)) : after opsD1 V (main_arg9 : DevRef τ sig) = V (main_arg9 : DevRef τ sig) := by after_results_simp
theorem keepD1_v43 (V : Valuation τ sig (Elt F)) : after opsD1 V (main_v43 : DevRef τ sig) = V (main_v43 : DevRef τ sig) := by after_results_simp
theorem keepD2_arg0 (V : Valuation τ sig (Elt F)) : after opsD2 V (main_arg0 : DevRef τ sig) = V (main_arg0 : DevRef τ sig) := by after_results_simp
theorem keepD2_arg1 (V : Valuation τ sig (Elt F)) : after opsD2 V (main_arg1 : DevRef τ sig) = V (main_arg1 : DevRef τ sig) := by after_results_simp
theorem keepD2_arg2 (V : Valuation τ sig (Elt F)) : after opsD2 V (main_arg2 : DevRef τ sig) = V (main_arg2 : DevRef τ sig) := by after_results_simp
theorem keepD2_arg3 (V : Valuation τ sig (Elt F)) : after opsD2 V (main_arg3 : DevRef τ sig) = V (main_arg3 : DevRef τ sig) := by after_results_simp
theorem keepD2_arg4 (V : Valuation τ sig (Elt F)) : after opsD2 V (main_arg4 : DevRef τ sig) = V (main_arg4 : DevRef τ sig) := by after_results_simp
theorem keepD2_arg5 (V : Valuation τ sig (Elt F)) : after opsD2 V (main_arg5 : DevRef τ sig) = V (main_arg5 : DevRef τ sig) := by after_results_simp
theorem keepD2_arg6 (V : Valuation τ sig (Elt F)) : after opsD2 V (main_arg6 : DevRef τ sig) = V (main_arg6 : DevRef τ sig) := by after_results_simp
theorem keepD2_arg7 (V : Valuation τ sig (Elt F)) : after opsD2 V (main_arg7 : DevRef τ sig) = V (main_arg7 : DevRef τ sig) := by after_results_simp
theorem keepD2_arg8 (V : Valuation τ sig (Elt F)) : after opsD2 V (main_arg8 : DevRef τ sig) = V (main_arg8 : DevRef τ sig) := by after_results_simp
theorem keepD2_arg9 (V : Valuation τ sig (Elt F)) : after opsD2 V (main_arg9 : DevRef τ sig) = V (main_arg9 : DevRef τ sig) := by after_results_simp
theorem keepD2_v43 (V : Valuation τ sig (Elt F)) : after opsD2 V (main_v43 : DevRef τ sig) = V (main_v43 : DevRef τ sig) := by after_results_simp
theorem keepD2_v44 (V : Valuation τ sig (Elt F)) : after opsD2 V (main_v44 : DevRef τ sig) = V (main_v44 : DevRef τ sig) := by after_results_simp
theorem keepD3_arg0 (V : Valuation τ sig (Elt F)) : after opsD3 V (main_arg0 : DevRef τ sig) = V (main_arg0 : DevRef τ sig) := by after_results_simp
theorem keepD3_arg1 (V : Valuation τ sig (Elt F)) : after opsD3 V (main_arg1 : DevRef τ sig) = V (main_arg1 : DevRef τ sig) := by after_results_simp
theorem keepD3_arg2 (V : Valuation τ sig (Elt F)) : after opsD3 V (main_arg2 : DevRef τ sig) = V (main_arg2 : DevRef τ sig) := by after_results_simp
theorem keepD3_arg3 (V : Valuation τ sig (Elt F)) : after opsD3 V (main_arg3 : DevRef τ sig) = V (main_arg3 : DevRef τ sig) := by after_results_simp
theorem keepD3_arg4 (V : Valuation τ sig (Elt F)) : after opsD3 V (main_arg4 : DevRef τ sig) = V (main_arg4 : DevRef τ sig) := by after_results_simp
theorem keepD3_arg5 (V : Valuation τ sig (Elt F)) : after opsD3 V (main_arg5 : DevRef τ sig) = V (main_arg5 : DevRef τ sig) := by after_results_simp
theorem keepD3_arg6 (V : Valuation τ sig (Elt F)) : after opsD3 V (main_arg6 : DevRef τ sig) = V (main_arg6 : DevRef τ sig) := by after_results_simp
theorem keepD3_arg7 (V : Valuation τ sig (Elt F)) : after opsD3 V (main_arg7 : DevRef τ sig) = V (main_arg7 : DevRef τ sig) := by after_results_simp
theorem keepD3_arg8 (V : Valuation τ sig (Elt F)) : after opsD3 V (main_arg8 : DevRef τ sig) = V (main_arg8 : DevRef τ sig) := by after_results_simp
theorem keepD3_arg9 (V : Valuation τ sig (Elt F)) : after opsD3 V (main_arg9 : DevRef τ sig) = V (main_arg9 : DevRef τ sig) := by after_results_simp
theorem keepD3_v43 (V : Valuation τ sig (Elt F)) : after opsD3 V (main_v43 : DevRef τ sig) = V (main_v43 : DevRef τ sig) := by after_results_simp
theorem keepE_arg0 (V : Valuation τ sig (Elt F)) : after opsE V (main_arg0 : DevRef τ sig) = V (main_arg0 : DevRef τ sig) := by after_results_simp
theorem keepE_arg1 (V : Valuation τ sig (Elt F)) : after opsE V (main_arg1 : DevRef τ sig) = V (main_arg1 : DevRef τ sig) := by after_results_simp
theorem keepE_arg2 (V : Valuation τ sig (Elt F)) : after opsE V (main_arg2 : DevRef τ sig) = V (main_arg2 : DevRef τ sig) := by after_results_simp
theorem keepE_arg3 (V : Valuation τ sig (Elt F)) : after opsE V (main_arg3 : DevRef τ sig) = V (main_arg3 : DevRef τ sig) := by after_results_simp
theorem keepE_arg4 (V : Valuation τ sig (Elt F)) : after opsE V (main_arg4 : DevRef τ sig) = V (main_arg4 : DevRef τ sig) := by after_results_simp
theorem keepE_arg5 (V : Valuation τ sig (Elt F)) : after opsE V (main_arg5 : DevRef τ sig) = V (main_arg5 : DevRef τ sig) := by after_results_simp
theorem keepE_arg6 (V : Valuation τ sig (Elt F)) : after opsE V (main_arg6 : DevRef τ sig) = V (main_arg6 : DevRef τ sig) := by after_results_simp
theorem keepE_arg7 (V : Valuation τ sig (Elt F)) : after opsE V (main_arg7 : DevRef τ sig) = V (main_arg7 : DevRef τ sig) := by after_results_simp
theorem keepE_arg8 (V : Valuation τ sig (Elt F)) : after opsE V (main_arg8 : DevRef τ sig) = V (main_arg8 : DevRef τ sig) := by after_results_simp
theorem keepE_arg9 (V : Valuation τ sig (Elt F)) : after opsE V (main_arg9 : DevRef τ sig) = V (main_arg9 : DevRef τ sig) := by after_results_simp

/-- The stretches folded one by one. -/
theorem after_ops (V : Valuation τ sig (Elt F)) :
    after ops V = after opsE (after opsD3 (after opsD2 (after opsD1 (after opsC (after opsB (after opsA V)))))) := by
  rw [ops_split]
  simp only [after_append]

/-- The result buffer after the whole line holds the network of the arguments' contents. -/
theorem out_eq (V : Valuation τ sig (Elt F)) :
    after ops V (main_v74 : DevRef τ sig)
      = Net.out (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) (V (main_arg9 : DevRef τ sig)) := by
  rw [after_ops]
  -- the in-degree factor
  have a0 := keepA_arg0 V
  have a1 := keepA_arg1 V
  have a2 := keepA_arg2 V
  have a3 := keepA_arg3 V
  have a4 := keepA_arg4 V
  have a5 := keepA_arg5 V
  have a6 := keepA_arg6 V
  have a7 := keepA_arg7 V
  have a8 := keepA_arg8 V
  have a9 := keepA_arg9 V
  have av7 := stageA V
  generalize after opsA V = V1 at *
  -- the first layer
  have b0 := (keepB_arg0 V1).trans a0
  have b1 := (keepB_arg1 V1).trans a1
  have b2 := (keepB_arg2 V1).trans a2
  have b3 := (keepB_arg3 V1).trans a3
  have b4 := (keepB_arg4 V1).trans a4
  have b5 := (keepB_arg5 V1).trans a5
  have b6 := (keepB_arg6 V1).trans a6
  have b7 := (keepB_arg7 V1).trans a7
  have b8 := (keepB_arg8 V1).trans a8
  have b9 := (keepB_arg9 V1).trans a9
  have bv7 := (keepB_v7 V1).trans av7
  have bv25 := stageB V1 _ _ _ _ _ a0 a1 a2 a4 a5 av7
  generalize after opsB V1 = V2 at *
  -- the second layer
  have c0 := (keepC_arg0 V2).trans b0
  have c1 := (keepC_arg1 V2).trans b1
  have c2 := (keepC_arg2 V2).trans b2
  have c3 := (keepC_arg3 V2).trans b3
  have c4 := (keepC_arg4 V2).trans b4
  have c5 := (keepC_arg5 V2).trans b5
  have c6 := (keepC_arg6 V2).trans b6
  have c7 := (keepC_arg7 V2).trans b7
  have c8 := (keepC_arg8 V2).trans b8
  have c9 := (keepC_arg9 V2).trans b9
  have cv43 := stageC V2 _ _ _ _ _ bv25 b1 b2 b6 b7 bv7
  generalize after opsC V2 = V3 at *
  -- the start offsets and the table
  have d0 := (keepD1_arg0 V3).trans c0
  have d1 := (keepD1_arg1 V3).trans c1
  have d2 := (keepD1_arg2 V3).trans c2
  have d3 := (keepD1_arg3 V3).trans c3
  have d4 := (keepD1_arg4 V3).trans c4
  have d5 := (keepD1_arg5 V3).trans c5
  have d6 := (keepD1_arg6 V3).trans c6
  have d7 := (keepD1_arg7 V3).trans c7
  have d8 := (keepD1_arg8 V3).trans c8
  have d9 := (keepD1_arg9 V3).trans c9
  have dv43 := (keepD1_v43 V3).trans cv43
  have dv48 := stageD1 V3 _ c3
  have dv44 := stageD1_iota V3
  generalize after opsD1 V3 = V4 at *
  -- the positions
  have e0 := (keepD2_arg0 V4).trans d0
  have e1 := (keepD2_arg1 V4).trans d1
  have e2 := (keepD2_arg2 V4).trans d2
  have e3 := (keepD2_arg3 V4).trans d3
  have e4 := (keepD2_arg4 V4).trans d4
  have e5 := (keepD2_arg5 V4).trans d5
  have e6 := (keepD2_arg6 V4).trans d6
  have e7 := (keepD2_arg7 V4).trans d7
  have e8 := (keepD2_arg8 V4).trans d8
  have e9 := (keepD2_arg9 V4).trans d9
  have ev43 := (keepD2_v43 V4).trans dv43
  have ev44 := (keepD2_v44 V4).trans dv44
  have ev60 := stageD2 V4 _ dv48
  generalize after opsD2 V4 = V5 at *
  -- the graph numbers
  have f0 := (keepD3_arg0 V5).trans e0
  have f1 := (keepD3_arg1 V5).trans e1
  have f2 := (keepD3_arg2 V5).trans e2
  have f3 := (keepD3_arg3 V5).trans e3
  have f4 := (keepD3_arg4 V5).trans e4
  have f5 := (keepD3_arg5 V5).trans e5
  have f6 := (keepD3_arg6 V5).trans e6
  have f7 := (keepD3_arg7 V5).trans e7
  have f8 := (keepD3_arg8 V5).trans e8
  have f9 := (keepD3_arg9 V5).trans e9
  have fv43 := (keepD3_v43 V5).trans ev43
  have fv61 := stageD3 V5 _ _ ev44 ev60
  generalize after opsD3 V5 = V6 at *
  -- pooling and read-out
  exact stageE V6 _ _ _ _ fv43 f3 f8 f9 fv61

/-- Argument 0's buffer is as it was. -/
theorem arg0_eq (V : Valuation τ sig (Elt F)) : after ops V (main_arg0 : DevRef τ sig) = V (main_arg0 : DevRef τ sig) := by
  rw [after_ops, keepE_arg0, keepD3_arg0, keepD2_arg0, keepD1_arg0, keepC_arg0, keepB_arg0, keepA_arg0]
/-- Argument 1's buffer is as it was. -/
theorem arg1_eq (V : Valuation τ sig (Elt F)) : after ops V (main_arg1 : DevRef τ sig) = V (main_arg1 : DevRef τ sig) := by
  rw [after_ops, keepE_arg1, keepD3_arg1, keepD2_arg1, keepD1_arg1, keepC_arg1, keepB_arg1, keepA_arg1]
/-- Argument 2's buffer is as it was. -/
theorem arg2_eq (V : Valuation τ sig (Elt F)) : after ops V (main_arg2 : DevRef τ sig) = V (main_arg2 : DevRef τ sig) := by
  rw [after_ops, keepE_arg2, keepD3_arg2, keepD2_arg2, keepD1_arg2, keepC_arg2, keepB_arg2, keepA_arg2]
/-- Argument 3's buffer is as it was. -/
theorem arg3_eq (V : Valuation τ sig (Elt F)) : after ops V (main_arg3 : DevRef τ sig) = V (main_arg3 : DevRef τ sig) := by
  rw [after_ops, keepE_arg3, keepD3_arg3, keepD2_arg3, keepD1_arg3, keepC_arg3, keepB_arg3, keepA_arg3]
/-- Argument 4's buffer is as it was. -/
theorem arg4_eq (V : Valuation τ sig (Elt F)) : after ops V (main_arg4 : DevRef τ sig) = V (main_arg4 : DevRef τ sig) := by
  rw [after_ops, keepE_arg4, keepD3_arg4, keepD2_arg4, keepD1_arg4, keepC_arg4, keepB_arg4, keepA_arg4]
/-- Argument 5's buffer is as it was. -/
theorem arg5_eq (V : Valuation τ sig (Elt F)) : after ops V (main_arg5 : DevRef τ sig) = V (main_arg5 : DevRef τ sig) := by
  rw [after_ops, keepE_arg5, keepD3_arg5, keepD2_arg5, keepD1_arg5, keepC_arg5, keepB_arg5, keepA_arg5]
/-- Argument 6's buffer is as it was. -/
theorem arg6_eq (V : Valuation τ sig (Elt F)) : after ops V (main_arg6 : DevRef τ sig) = V (main_arg6 : DevRef τ sig) := by
  rw [after_ops, keepE_arg6, keepD3_arg6, keepD2_arg6, keepD1_arg6, keepC_arg6, keepB_arg6, keepA_arg6]
/-- Argument 7's buffer is as it was. -/
theorem arg7_eq (V : Valuation τ sig (Elt F)) : after ops V (main_arg7 : DevRef τ sig) = V (main_arg7 : DevRef τ sig) := by
  rw [after_ops, keepE_arg7, keepD3_arg7, keepD2_arg7, keepD1_arg7, keepC_arg7, keepB_arg7, keepA_arg7]
/-- Argument 8's buffer is as it was. -/
theorem arg8_eq (V : Valuation τ sig (Elt F)) : after ops V (main_arg8 : DevRef τ sig) = V (main_arg8 : DevRef τ sig) := by
  rw [after_ops, keepE_arg8, keepD3_arg8, keepD2_arg8, keepD1_arg8, keepC_arg8, keepB_arg8, keepA_arg8]
/-- Argument 9's buffer is as it was. -/
theorem arg9_eq (V : Valuation τ sig (Elt F)) : after ops V (main_arg9 : DevRef τ sig) = V (main_arg9 : DevRef τ sig) := by
  rw [after_ops, keepE_arg9, keepD3_arg9, keepD2_arg9, keepD1_arg9, keepC_arg9, keepB_arg9, keepA_arg9]

/-- On every device, for any float values, from any memory with zero counters: every weakly fair execution of the program
    terminates with the result buffer at the network of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74)
          = Net.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v74).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.lean ====
/-
  The certificate: a two-layer graph convolution with mean pooling and a linear read-out, computed by a program of
  three kernel launches among stretches of array operations, against the plain array program.

  Both programs gather sender rows, add them at the receivers, scale every node's row by `1 / max (in-degree, 1)`,
  project, add a bias and clamp at zero, twice; then take the mean of every graph's node rows and apply the read-out.
  The kernel program does the scaling, the projection, the bias and the clamp of each layer, and the read-out, inside
  launches over blocks of rows, with the operands narrowed to a shorter float format on the way into the matrix unit;
  on the extended reals a change of format is the identity and the matrix unit's product is the plain sum, so each
  launch leaves the layer's arithmetic of its whole input arrays (`Region0`, `Region1`, `Region2`), the stretches
  between the launches are the reference's own operations (`KWalk`, `Bridge`), and the two results are one function of
  the ten arguments (`Bridge.net_eq`): the same sums and products in the same order, no law of arithmetic beyond
  `0 + s = s` and no appeal to finiteness. The three frame claims are the generated frames of the two kernel programs
  and the reference's run with its result dropped; the idealization rewrote nothing.
-/
import proofs.«110495_j4595615007149_2_alg».proof.Defs
import proofs.«110495_j4595615007149_2_alg».proof.Proof.Gen.Kernel
import proofs.«110495_j4595615007149_2_alg».proof.Proof.Gen.Kernel.Skeleton
import proofs.«110495_j4595615007149_2_alg».proof.Proof.Gen.Kernel.Launch
import proofs.«110495_j4595615007149_2_alg».proof.Proof.Gen.Kernel.Points
import proofs.«110495_j4595615007149_2_alg».proof.Proof.Gen.Kernel.Frame
import proofs.«110495_j4595615007149_2_alg».proof.Proof.Gen.KernelIdeal
import proofs.«110495_j4595615007149_2_alg».proof.Proof.Gen.KernelIdeal.Skeleton
import proofs.«110495_j4595615007149_2_alg».proof.Proof.Gen.KernelIdeal.Launch
import proofs.«110495_j4595615007149_2_alg».proof.Proof.Gen.KernelIdeal.Points
import proofs.«110495_j4595615007149_2_alg».proof.Proof.Gen.KernelIdeal.Frame
import proofs.«110495_j4595615007149_2_alg».proof.Proof.Gen.ReferenceIdeal
import proofs.«110495_j4595615007149_2_alg».proof.Proof.Gen.Pre_finite_inputs
import proofs.«110495_j4595615007149_2_alg».proof.Proof.KRun
import proofs.«110495_j4595615007149_2_alg».proof.Proof.KWalk
import proofs.«110495_j4595615007149_2_alg».proof.Proof.Bridge
import proofs.«110495_j4595615007149_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with the reference network of the arguments in their result buffers. -/
theorem algebraic : Cert.algebraic_KernelIdeal_ReferenceIdeal := by
  intro m ρ m' ρ' _ hagree
  refine ⟨fun c => Cert.ReferenceIdeal.Net.out (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)), ?_, ?_⟩
  · refine (θ_run Cert.KernelIdeal.defs _ _).mono (fun _ h c => ⟨(h c).1.trans ?_, (h c).2⟩)
      (Cert.KernelIdeal.KRun.run_main (F := Ideal) m ρ)
    exact (Cert.KernelIdeal.Walk.W14_main_v65 m ρ c).trans (Cert.Bridge.net_eq _ _ _ _ _ _ _ _ _ _)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
